-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S256x512 : Shape := ⟨2, ![256, 512]⟩
abbrev S512x512 : Shape := ⟨2, ![512, 512]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048 .f32) (main_arg5 : FVec F S512x2048 .f32) (main_arg6 : FVec F S512 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S256x4096 .f32) (main_arg1 : FVec F S256x512 .f32) (main_arg2 : FVec F S512x512 .f32) (main_arg3 : FVec F S2048x4096 .f32) (main_arg4 : FVec F S2048 .f32) (main_arg5 : FVec F S512x2048 .f32) (main_arg6 : FVec F S512 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_v13 main_v16
-- ==== Kernel.lean ====
abbrev S256x4096 : Shape := ⟨2, ![256, 4096]⟩
abbrev S256x512 : Shape := ⟨2, ![256, 512]⟩
abbrev S512x512 : Shape := ⟨2, ![512, 512]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S1x2048 : Shape := ⟨2, ![1, 2048]⟩
abbrev S1x512 : Shape := ⟨2, ![1, 512]⟩
abbrev S256x1 : Shape := ⟨2, ![256, 1]⟩
abbrev S256x1024 : Shape := ⟨2, ![256, 1024]⟩
abbrev S2048x1024 : Shape := ⟨2, ![2048, 1024]⟩
abbrev S256x2048 : Shape := ⟨2, ![256, 2048]⟩
abbrev S1024x2048 : Shape := ⟨2, ![1024, 2048]⟩
abbrev S2048x512 : Shape := ⟨2, ![2048, 512]⟩
abbrev S256 : Shape := ⟨1, ![256]⟩
abbrev S64x128 : Shape := ⟨2, ![64, 128]⟩
abbrev S128x128 : Shape := ⟨2, ![128, 128]⟩
abbrev S1x128x128 : Shape := ⟨3, ![1, 128, 128]⟩
abbrev S64x1x128 : Shape := ⟨3, ![64, 1, 128]⟩
abbrev S64x128x128 : Shape := ⟨3, ![64, 128, 128]⟩
abbrev S256x513 : Shape := ⟨2, ![256, 513]⟩

abbrev nBuf : Space → Nat
  | .hbm => 13
  | .vmem => 18
  | .smem => 0
  | _ => 0

abbrev bufTy : (tb : Table) → Fin (tcTables nBuf tb) → BufTy
  | .hbm, ⟨0, _⟩ => ⟨S256x4096, .f32⟩
  | .hbm, ⟨1, _⟩ => ⟨S256x512, .f32⟩
  | .hbm, ⟨2, _⟩ => ⟨S512x512, .f32⟩
  | .hbm, ⟨3, _⟩ => ⟨S2048x4096, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S1x2048, .f32⟩
  | .hbm, ⟨8, _⟩ => ⟨S1x512, .f32⟩
  | .hbm, ⟨9, _⟩ => ⟨S256x512, .f32⟩
  | .hbm, ⟨10, _⟩ => ⟨S256x1, .f32⟩
  | .hbm, ⟨11, _⟩ => ⟨S256x512, .f32⟩
  | .hbm, ⟨12, _⟩ => ⟨S256x513, .f32⟩
  | .local _ .vmem, ⟨0, _⟩ => ⟨S256x1024, .f32⟩
  | .local _ .vmem, ⟨1, _⟩ => ⟨S256x1024, .f32⟩
  | .local _ .vmem, ⟨2, _⟩ => ⟨S2048x1024, .f32⟩
  | .local _ .vmem, ⟨3, _⟩ => ⟨S2048x1024, .f32⟩
  | .local _ .vmem, ⟨4, _⟩ => ⟨S1x2048, .f32⟩
  | .local _ .vmem, ⟨5, _⟩ => ⟨S512x2048, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x1, .f32⟩
  | .local _ .vmem, ⟨10, _⟩ => ⟨S256x2048, .f32⟩
  | .local _ .vmem, ⟨11, _⟩ => ⟨S64x128, .f32⟩
  | .local _ .vmem, ⟨12, _⟩ => ⟨S64x128, .f32⟩
  | .local _ .vmem, ⟨13, _⟩ => ⟨S128x128, .f32⟩
  | .local _ .vmem, ⟨14, _⟩ => ⟨S128x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v14 : BitVec 1 := Scalar.cmpi .eq arg0 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_9 : BitVec 32 := 0#32
  let v25 : BitVec 1 := Scalar.cmpi .ne v24 c0_i32_9
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S2048_S1x2048 : S2048.ShapeCasts S1x2048
  shapeCasts_S512_S1x512 : S512.ShapeCasts S1x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  transposes_S2048x1024_p1_0_S1024x2048 : S2048x1024.Transposes [1, 0] S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S1x128x128 : S128x128.ShapeCasts S1x128x128
  shapeCasts_S64x128_S64x1x128 : S64x128.ShapeCasts S64x1x128
  broadcasts_S1x128x128_S64x128x128 : S1x128x128.Broadcasts S64x128x128
  broadcasts_S64x1x128_S64x128x128 : S64x1x128.Broadcasts S64x128x128
  reduces_S64x128x128_S64x128 : S64x128x128.Reduces [2] S64x128
  concatenates_S256x1_S256x512_S256x513_d1 : Shape.Concatenates [S256x1, S256x512] S256x513 1
  dot_S256x1024_S1024x2048_S256x2048_1_0_0_1_n_n_wf : DotDims.WF S256x1024 S1024x2048 S256x2048 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x4096.size a
  hwx0_1 : ∀ i : grid0.Coords, EltTy.bits .f32 = 32 ∨ (Rect.block (s := S2048x4096) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S256x512.size a
  hwx1_0 : ∀ i : grid1.Coords, EltTy.bits .f32 = 32 ∨ (Rect.block (s := S256x512) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S256x512.size a
  hwx1_2 : ∀ i : grid1.Coords, EltTy.bits .f32 = 32 ∨ (Rect.block (s := S256x512) S64x128.size (cc1_transform_2 i) (hinb1_2 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S256x512.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S256x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v2_0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S256x4096 : Shape := ⟨2, ![256, 4096]⟩
abbrev S256x512 : Shape := ⟨2, ![256, 512]⟩
abbrev S512x512 : Shape := ⟨2, ![512, 512]⟩
abbrev S2048x4096 : Shape := ⟨2, ![2048, 4096]⟩
abbrev S2048 : Shape := ⟨1, ![2048]⟩
abbrev S512x2048 : Shape := ⟨2, ![512, 2048]⟩
abbrev S512 : Shape := ⟨1, ![512]⟩
abbrev S4096x2048 : Shape := ⟨2, ![4096, 2048]⟩
abbrev S256x2048 : Shape := ⟨2, ![256, 2048]⟩
abbrev S1x2048 : Shape := ⟨2, ![1, 2048]⟩
abbrev S2048x512 : Shape := ⟨2, ![2048, 512]⟩
abbrev S1x512 : Shape := ⟨2, ![1, 512]⟩
abbrev S_ : Shape := ⟨0, ![]⟩
abbrev S256 : Shape := ⟨1, ![256]⟩
abbrev S1x512x512 : Shape := ⟨3, ![1, 512, 512]⟩
abbrev S256x1x512 : Shape := ⟨3, ![256, 1, 512]⟩
abbrev S256x512x512 : Shape := ⟨3, ![256, 512, 512]⟩
abbrev S256x1 : Shape := ⟨2, ![256, 1]⟩
abbrev S256x513 : Shape := ⟨2, ![256, 513]⟩

abbrev nBuf : Space → Nat
  | .hbm => 41
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x512, .f32⟩
  | .hbm, ⟨2, _⟩ => ⟨S512x512, .f32⟩
  | .hbm, ⟨3, _⟩ => ⟨S2048x4096, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S4096x2048, .f32⟩
  | .hbm, ⟨8, _⟩ => ⟨S256x2048, .f32⟩
  | .hbm, ⟨9, _⟩ => ⟨S1x2048, .f32⟩
  | .hbm, ⟨10, _⟩ => ⟨S256x2048, .f32⟩
  | .hbm, ⟨11, _⟩ => ⟨S256x2048, .f32⟩
  | .hbm, ⟨12, _⟩ => ⟨S2048x512, .f32⟩
  | .hbm, ⟨13, _⟩ => ⟨S256x512, .f32⟩
  | .hbm, ⟨14, _⟩ => ⟨S1x512, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256x512, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x512x512, .f32⟩
  | .hbm, ⟨27, _⟩ => ⟨S256x1x512, .f32⟩
  | .hbm, ⟨28, _⟩ => ⟨S256x512x512, .f32⟩
  | .hbm, ⟨29, _⟩ => ⟨S256x512x512, .f32⟩
  | .hbm, ⟨30, _⟩ => ⟨S256x512x512, .f32⟩
  | .hbm, ⟨31, _⟩ => ⟨S_, .f32⟩
  | .hbm, ⟨32, _⟩ => ⟨S256x512x512, .f32⟩
  | .hbm, ⟨33, _⟩ => ⟨S256x512x512, .f32⟩
  | .hbm, ⟨34, _⟩ => ⟨S256x512x512, .f32⟩
  | .hbm, ⟨35, _⟩ => ⟨S_, .f32⟩
  | .hbm, ⟨36, _⟩ => ⟨S256x512, .f32⟩
  | .hbm, ⟨37, _⟩ => ⟨S256x512, .f32⟩
  | .hbm, ⟨38, _⟩ => ⟨S256x512, .f32⟩
  | .hbm, ⟨39, _⟩ => ⟨S256x1, .f32⟩
  | .hbm, ⟨40, _⟩ => ⟨S256x513, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S2048x4096_S4096x2048_1_0 : S2048x4096.Transposes [1, 0] S4096x2048
  bcast_S2048_S1x2048_1 : S2048.BroadcastsInDim S1x2048 (![1] : Fin 1 → Fin S1x2048.rank)
  bcast_S1x2048_S256x2048_0_1 : S1x2048.BroadcastsInDim S256x2048 (![0, 1] : Fin 2 → Fin S256x2048.rank)
  transposes_S512x2048_S2048x512_1_0 : S512x2048.Transposes [1, 0] S2048x512
  bcast_S512_S1x512_1 : S512.BroadcastsInDim S1x512 (![1] : Fin 1 → Fin S1x512.rank)
  bcast_S1x512_S256x512_0_1 : S1x512.BroadcastsInDim S256x512 (![0, 1] : Fin 2 → Fin S256x512.rank)
  bcast_S_S256x512 : S_.BroadcastsInDim S256x512 (![] : Fin 0 → Fin S256x512.rank)
  reducesTo_S256x512_S256_d1 : S256x512.ReducesTo [1] S256
  h_S_ : 0 < S_.numel
  bcast_S512x512_S1x512x512_1_2 : S512x512.BroadcastsInDim S1x512x512 (![1, 2] : Fin 2 → Fin S1x512x512.rank)
  bcast_S256x512_S256x1x512_0_2 : S256x512.BroadcastsInDim S256x1x512 (![0, 2] : Fin 2 → Fin S256x1x512.rank)
  bcast_S1x512x512_S256x512x512_0_1_2 : S1x512x512.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S_S256x512x512 : S_.BroadcastsInDim S256x512x512 (![] : Fin 0 → Fin S256x512x512.rank)
  reducesTo_S256x512x512_S256x512_d2 : S256x512x512.ReducesTo [2] S256x512
  bcast_S256_S256x1_0 : S256.BroadcastsInDim S256x1 (![0] : Fin 1 → Fin S256x1.rank)
  concatenates_S256x1_S256x512_S256x513_d1 : Shape.Concatenates [S256x1, S256x512] S256x513 1
  dot_S256x4096_S4096x2048_S256x2048_1_0_0_1_n_n_wf : DotDims.WF S256x4096 S4096x2048 S256x2048 [1] [0] [0] [1] [] []
  dot_S256x2048_S2048x512_S256x512_1_0_0_1_n_n_wf : DotDims.WF S256x2048 S2048x512 S256x512 [1] [0] [0] [1] [] []

variable [Facts₀]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

class Facts : Prop extends Facts₀ where

variable [Facts]
-- ==== Proof.KiR0Runs.lean ====
/-
  The first kernel (a matrix product accumulated over four blocks of the contracted axis, then the second
  layer and the positive score at the last block): what its per-case runs share.

  The grid has four points k = 0..3. The body zeroes its accumulator when k = 0, adds this block's
  product at every point, and at k = 3 finishes: three control cases (first, middle, last).
  The two results are stored at the last point only; elsewhere their buffers are left as found.
-/
import proofs.«169600_j28226525069938_2_alg».proof.Proof.Gen.KernelIdeal.Launch
import proofs.«169600_j28226525069938_2_alg».proof.Proof.Gen.KernelIdeal.Skeleton
import proofs.«169600_j28226525069938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first block": k = 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last block": k = 3. -/
abbrev cond0_1 (i : grid0.Coords) : Prop := k0_cond2 i = 1#1
theorem hcond0_1 : ∀ t : Fin cfg0.N, cond0_1 (grid0.coords t) ↔ t.val = 3 :=
  (by decide +kernel : ∀ t : Fin grid0.N, cond0_1 (grid0.coords t) ↔ t.val = 3)

/-! ## Where the result windows are idle -/

theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0 : Memref sig .tc .vmem S256x2048 .f32 := Memref.whole cc0_scratch0
abbrev VS0 : View sig .tc .vmem S256x2048 .f32 := scM0.view
abbrev VO0_6 : View sig .tc .vmem S256x512 .f32 := (Memref.whole cc0_stg6_0 : Memref sig .tc .vmem S256x512 .f32).view
abbrev VO0_7 : View sig .tc .vmem S256x1 .f32 := (Memref.whole cc0_stg7_0 : Memref sig .tc .vmem S256x1 .f32).view

/-- The scoped buffers of the other kernel, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-! ## The windows' blocks, at the contents the region is entered with -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a window whose block index does
    not move is fetched once and still holds the same block). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KiR0RunA.lean ====
/-
  The first kernel's body run whole in one control case (the first block: the accumulator is zeroed, then this block's product is added): from the buffers it reads held at given
  contents, it runs to its return leaving each buffer it stores into with its stores written, as a list of pieces
  the symbolic run finds.
-/
import proofs.«169600_j28226525069938_2_alg».proof.Proof.KiR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case "first block". The accumulator may hold anything on entry. -/
noncomputable def kernelRun0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KiR0RunB.lean ====
/-
  The first kernel's body run whole in one control case (a middle block: this block's product is added to the accumulator): from the buffers it reads held at given
  contents, it runs to its return leaving each buffer it stores into with its stores written, as a list of pieces
  the symbolic run finds.
-/
import proofs.«169600_j28226525069938_2_alg».proof.Proof.KiR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case "middle block". The accumulator holds what the point before left. -/
noncomputable def kernelRun0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KiR0RunC.lean ====
/-
  The first kernel's body run whole in one control case (the last block: the product is added, then the second layer and the positive score are computed and stored): from the buffers it reads held at given
  contents, it runs to its return leaving each buffer it stores into with its stores written, as a list of pieces
  the symbolic run finds.
-/
import proofs.«169600_j28226525069938_2_alg».proof.Proof.KiR0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case "last block". The accumulator holds what the point before left; the two result buffers may hold anything. -/
noncomputable def kernelRun0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    Σ' (L6 : List (View.Piece (Elt F) S256x512 .f32)) (L7 : List (View.Piece (Elt F) S256x1 .f32)), { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mm_kernel_eq_skeleton]; unfold cc0__mm_kernel_skel
    unfold owns
    iintro ⟨⟨%f0, %hf0, Hf0⟩, ⟨%f1, %hf1, Hf1⟩, ⟨%f2, %hf2, Hf2⟩, ⟨%f3, %hf3, Hf3⟩, ⟨%f4, %hf4, Hf4⟩, ⟨%f5, %hf5, Hf5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [Hf0]
    · iexists _; isplitr; · ipureintro; exact harg1.read_unread _
      iexact Hf0
    isplitl [Hf1]
    · iexists _; isplitr; · ipureintro; exact harg2.read_unread _
      iexact Hf1
    isplitl [Hf2]
    · iexists _; isplitr; · ipureintro; exact harg3.read_unread _
      iexact Hf2
    isplitl [Hf3]
    · iexists _; isplitr; · ipureintro; exact harg4.read_unread _
      iexact Hf3
    isplitl [Hf4]
    · iexists _; isplitr; · ipureintro; exact harg5.read_unread _
      iexact Hf4
    isplitl [Hf5]
    · iexists _; isplitr; · ipureintro; exact harg6.read_unread _
      iexact Hf5
    isplitl [H6]; · iexists _; iexact H6
    isplitl [H7]; · iexists _; iexact H7
    iexists _; iexact HS0

end Cert.KernelIdeal.Hand

end
-- ==== Proof.KiR0Frame.lean ====
/-
  The first kernel over the whole grid: what its accumulator and its two result buffers hold after each point,
  the invariant between points (the accumulator at the running sum of the blocks' products, everything else of the
  core's scoped memory untouched), the pipeline's proof data at the contents the region is entered with, and the
  body's obligation at every point.
-/
import proofs.«169600_j28226525069938_2_alg».proof.Proof.KiR0RunA
import proofs.«169600_j28226525069938_2_alg».proof.Proof.KiR0RunB
import proofs.«169600_j28226525069938_2_alg».proof.Proof.KiR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) (y : S256x2048.Idx) :
    ∃ pc ∈ (kernelRun0_A c i arg1 harg1 arg2 harg2 arg3 harg3 arg4 harg4 arg5 harg5 arg6 harg6 arg7 harg7 arg8 harg8 arg9 harg9 hc0 hc1 x0 x1).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).1 S256x2048.size (by sl_kernel_rfl) y

/-- The accumulator after the first block. -/
def sout0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) : Vec F S256x2048 .f32 :=
  VS0.read (Elt F) (VS0.writes (Elt F) VS0.junk (kernelRun0_A c i arg1 harg1 arg2 harg2 arg3 harg3 arg4 harg4 arg5 harg5 arg6 harg6 arg7 harg7 arg8 harg8 arg9 harg9 hc0 hc1 x0 x1).1)

theorem scover0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) (y : S256x2048.Idx) :
    ∃ pc ∈ (kernelRun0_B c i arg1 harg1 arg2 harg2 arg3 harg3 arg4 harg4 arg5 harg5 arg6 harg6 arg7 harg7 arg8 harg8 arg9 harg9 hc0 hc1 x0 x1 xs0).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0).1 S256x2048.size (by sl_kernel_rfl) y

/-- The accumulator after a middle block, over what the point before left. -/
def sout0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) : Vec F S256x2048 .f32 :=
  VS0.read (Elt F) (VS0.writes (Elt F) VS0.junk (kernelRun0_B c i arg1 harg1 arg2 harg2 arg3 harg3 arg4 harg4 arg5 harg5 arg6 harg6 arg7 harg7 arg8 harg8 arg9 harg9 hc0 hc1 x0 x1 xs0).1)

section CaseC
variable (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32)

theorem cover0_C_6 (y : S256x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).1 S256x512.size (by sl_kernel_rfl) y
theorem cover0_C_7 (y : S256x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.1 S256x1.size (by sl_kernel_rfl) y
theorem scover0_C (y : S256x2048.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.2.1 S256x2048.size (by sl_kernel_rfl) y

/-- The first result's buffer (the embedding) after the last block. -/
def out0_C_6 : Vec F S256x512 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0).1)
/-- The second result's buffer (the positive scores) after the last block. -/
def out0_C_7 : Vec F S256x1 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 xs0).2.1)
/-- The accumulator after the last block. -/
def sout0_C : Vec F S256x2048 .f32 :=
  VS0.read (Elt F) (VS0.writes (Elt F) VS0.junk (kernelRun0_C c i arg1 harg1 arg2 harg2 arg3 harg3 arg4 harg4 arg5 harg5 arg6 harg6 arg7 harg7 arg8 harg8 arg9 harg9 hc0 hc1 x0 x1 x2 x3 x4 x5 xs0).2.2.1)
end CaseC

/-! ## The accumulation over the grid -/

/-- The accumulator after the body at position n: the first block's case at 0, then each case over what the
    position before left. -/
def acc0 (c : Dev nD) : (n : ℕ) → n < cfg0.N → Vec F S256x2048 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩)
  | n + 1, hn =>
    if h3 : n + 1 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => absurd ((hcond0_0 ⟨n + 1, hn⟩).mp h) (Nat.succ_ne_zero n)) ((hcond0_1 ⟨n + 1, hn⟩).mpr h3)
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (acc0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => absurd ((hcond0_0 ⟨n + 1, hn⟩).mp h) (Nat.succ_ne_zero n)) (fun h => h3 ((hcond0_1 ⟨n + 1, hn⟩).mp h))
        (iblk0 V c 0 ⟨n + 1, hn⟩) (iblk0 V c 1 ⟨n + 1, hn⟩) (acc0 c n (Nat.lt_of_succ_lt hn))

theorem acc0_A (c : Dev nD) (t : Fin cfg0.N) (h0 : t.val = 0) (h3 : ¬t.val = 3) :
    acc0 V c t.val t.isLt = sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h3 ((hcond0_1 t).mp h)) (iblk0 V c 0 t) (iblk0 V c 1 t) := by
  obtain ⟨n, hn⟩ := t
  cases n with
  | zero => rfl
  | succ n => exact absurd h0 (Nat.succ_ne_zero n)

theorem acc0_B (c : Dev nD) (t : Fin cfg0.N) (h0 : ¬t.val = 0) (h3 : ¬t.val = 3) :
    acc0 V c t.val t.isLt = sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h3 ((hcond0_1 t).mp h)) (iblk0 V c 0 t) (iblk0 V c 1 t)
      (acc0 V c (t.val - 1) (Nat.lt_of_le_of_lt (Nat.sub_le _ _) t.isLt)) := by
  obtain ⟨n, hn⟩ := t
  cases n with
  | zero => exact absurd rfl h0
  | succ n => exact (dif_neg h3).trans rfl

theorem acc0_C (c : Dev nD) (t : Fin cfg0.N) (h0 : ¬t.val = 0) (h3 : t.val = 3) :
    acc0 V c t.val t.isLt = sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h3) (iblk0 V c 0 t) (iblk0 V c 1 t) (iblk0 V c 2 t) (iblk0 V c 3 t) (iblk0 V c 4 t) (iblk0 V c 5 t)
      (acc0 V c (t.val - 1) (Nat.lt_of_le_of_lt (Nat.sub_le _ _) t.isLt)) := by
  obtain ⟨n, hn⟩ := t
  cases n with
  | zero => exact absurd rfl h0
  | succ n => exact (dif_pos h3).trans rfl

/-- The first result's buffer after the body at point t: at the last point what that case stores (over the accumulator
    the point before left); elsewhere the window is idle and not written back, and the value here is never consulted. -/
def res0_6 (c : Dev nD) (t : Fin cfg0.N) : Vec F S256x512 .f32 :=
  if h3 : t.val = 3 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => absurd ((hcond0_0 t).mp h) (by omega)) ((hcond0_1 t).mpr h3)
      (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt))
  else VO0_6.read (Elt F) VO0_6.junk
/-- The second result's buffer after the body at point t, likewise. -/
def res0_7 (c : Dev nD) (t : Fin cfg0.N) : Vec F S256x1 .f32 :=
  if h3 : t.val = 3 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => absurd ((hcond0_0 t).mp h) (by omega)) ((hcond0_1 t).mpr h3)
      (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt))
  else VO0_7.read (Elt F) VO0_7.junk

/-! ## The invariant between points -/

/-- Before position n: at the start the class's invariant (every scoped buffer that is no staging buffer at anything);
    afterwards the accumulator at what the position before left, the other kernel's scoped buffers at anything. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The arrays as the region finds them; after the body at point t each input's buffer at its block and the results'
    at res0_6 / res0_7; the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => res0_6 V c t
    | ⟨7, _⟩ => res0_7 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = res0_6 V c t := by dsimp only [dat0]
theorem after0_7 (c : Dev nD) (t : Fin cfg0.N) : (dat0 V c).after 7 t = res0_7 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' buffers hold their blocks; the point's position says which case runs; the
    invariant hands the body the accumulator at what the point before left (at anything before the first point) and
    takes it back at this point's contents; the results' buffers are handed back untouched except at the last point,
    where they hold what that case stores; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rfl, after0_0]
  rw [show (dat0 V c).leavesExact 1 t = owns (c : Thread nD τ) (ms0_1 t) fullShare ((dat0 V c).after 1 t) from by
    unfold Dat.leavesExact; rfl, after0_1]
  rw [show (dat0 V c).leavesExact 2 t = owns (c : Thread nD τ) (ms0_2 t) fullShare ((dat0 V c).after 2 t) from by
    unfold Dat.leavesExact; rfl, after0_2]
  rw [show (dat0 V c).leavesExact 3 t = owns (c : Thread nD τ) (ms0_3 t) fullShare ((dat0 V c).after 3 t) from by
    unfold Dat.leavesExact; rfl, after0_3]
  rw [show (dat0 V c).leavesExact 4 t = owns (c : Thread nD τ) (ms0_4 t) fullShare ((dat0 V c).after 4 t) from by
    unfold Dat.leavesExact; rfl, after0_4]
  rw [show (dat0 V c).leavesExact 5 t = owns (c : Thread nD τ) (ms0_5 t) fullShare ((dat0 V c).after 5 t) from by
    unfold Dat.leavesExact; rfl, after0_5]
  by_cases h3 : t.val = 3
  · -- the last block
    have h0 : ¬t.val = 0 := by omega
    rw [show (dat0 V c).leavesExact 6 t = owns (c : Thread nD τ) (ms0_6 t) fullShare ((dat0 V c).after 6 t) from by
      unfold Dat.leavesExact; rw [liveAt0_6 t ((hcond0_1 t).mpr h3)], after0_6]
    rw [show (dat0 V c).leavesExact 7 t = owns (c : Thread nD τ) (ms0_7 t) fullShare ((dat0 V c).after 7 t) from by
      unfold Dat.leavesExact; rw [liveAt0_7 t ((hcond0_1 t).mpr h3)], after0_7]
    rw [acc0_C V c t h0 h3]
    unfold res0_6 res0_7; rw [dif_pos h3, dif_pos h3]
    unfold out0_C_6 out0_C_7 sout0_C; (try dsimp only)
    rw [PhiS0_castSucc V c t, PhiS0_pos V c _ _ h0]
    iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ (fun h => h0 ((hcond0_0 t).mp h)) ((hcond0_1 t).mpr h3) (iblk0 V c 0 t) (iblk0 V c 1 t) (iblk0 V c 2 t) (iblk0 V c 3 t) (iblk0 V c 4 t) (iblk0 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 HB Hg]
    · isplitl [HS0 HB]
      · isplitl [HS0]
        · unfold owns; iexists _; isplitr
          swap; · iexact HS0
          ipureintro; exact View.read_writes_of_cover _ _ _ _ _ (scover0_C c _ _ _ _ _ _ _ _ _ _ _ _ _ _ _ _ _ _ _ _ _ _ _ _ _ _ _ _)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _)
  · -- not the last block: the results' windows are idle and not written back
    rw [Dat.leavesExact_idle (dat0 V c) 6 t (idleAt0_6 t (fun h => h3 ((hcond0_1 t).mp h))) (noFlush0_6 t (fun h => h3 ((hcond0_1 t).mp h)))]
    rw [Dat.leavesExact_idle (dat0 V c) 7 t (idleAt0_7 t (fun h => h3 ((hcond0_1 t).mp h))) (noFlush0_7 t (fun h => h3 ((hcond0_1 t).mp h)))]
    by_cases h0 : t.val = 0
    · -- the first block
      rw [acc0_A V c t h0 h3]
      unfold sout0_A; (try dsimp only)
      rw [PhiS0_castSucc V c t, PhiS0_zero V c _ _ h0, PhiA0_eq]
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h3 ((hcond0_1 t).mp h)) (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · -- a middle block
      rw [acc0_B V c t h0 h3]
      unfold sout0_B; (try dsimp only)
      rw [PhiS0_castSucc V c t, PhiS0_pos V c _ _ h0]
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h3 ((hcond0_1 t).mp h)) (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA0_eq]
  iintro ⟨⟨HS0, HB⟩, Hg⟩
  isplitl [HS0 HB]
  · isplitl [HS0]
    · iexists _; iexact HS0
    iexact HB
  iexact Hg

end Cert.KernelIdeal.Hand

end
-- ==== Proof.KiR1Runs.lean ====
/-
  The second kernel (for a tile of 64 rows against a tile of 128 rows, the sum over a block of 128 coordinates of
  the squared positive parts of the differences, accumulated over four blocks; at the last block minus the square
  root is stored): what its per-case runs share.

  The grid has 4 × 4 × 4 points; the last coordinate d = 0..3 is the block of the summed axis and varies
  fastest, so point t has d = t mod 4. The body zeroes its accumulator when d = 0, adds this block's sums at
  every point, and at d = 3 stores the result tile: three control cases. The result is stored, and written back,
  at the points with d = 3 only; elsewhere its buffer is left as found.
-/
import proofs.«169600_j28226525069938_2_alg».proof.Proof.Gen.KernelIdeal.Launch
import proofs.«169600_j28226525069938_2_alg».proof.Proof.Gen.KernelIdeal.Skeleton
import proofs.«169600_j28226525069938_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first block of the summed axis": d = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last block of the summed axis": d = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the result window is idle -/

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S64x128 .f32 := Memref.whole cc1_scratch0
abbrev VS1 : View sig .tc .vmem S64x128 .f32 := scM1.view
abbrev VO1_2 : View sig .tc .vmem S64x128 .f32 := (Memref.whole cc1_stg2_0 : Memref sig .tc .vmem S64x128 .f32).view

/-- The scoped buffers of the other kernel, each whole at some contents, with the accumulator's state X last:
    they ride along untouched. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ X)

/-- The same buffers without the accumulator. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f))

/-- The accumulator's state taken out of the chain, -/
theorem others1_out (c : Dev nD) (X : sProp 𝕄) : others1 c X ⊢ iprop(X ∗ rest1 c) := by
  unfold others1 rest1
  iintro ⟨H0, H1, H2, H3, H4, H5, H6, H7, H8, H9, H10, HX⟩
  isplitl [HX]; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- and put back. -/
theorem others1_in (c : Dev nD) (X : sProp 𝕄) : iprop(X ∗ rest1 c) ⊢ others1 c X := by
  unfold others1 rest1
  iintro ⟨HX, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HX

/-- The class invariant with the accumulator as a memref owned at some contents. -/
theorem PhiA1_eq (c : Dev nD) :
    (Pipeline.ΦA spec1 c : sProp 𝕄)
      = iprop(others1 c iprop(∃ d, owns (c : Thread nD τ) scM1 fullShare d) ∗ (∃ r, prngReg c r)) := by
  unfold Pipeline.ΦA others1; rw [scopedRest1_eq]; simp only [scM1, owns_whole]; try rfl

/-! ## The windows' blocks, at the contents the region is entered with -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Cert.KernelIdeal.Hand

end
-- ==== Proof.KiR1RunA.lean ====
/-
  The second kernel's body run whole in one control case (the first block of the summed axis: the accumulator is zeroed, then this block's sums are added): from the buffers it reads held at given
  contents, it runs to its return leaving each buffer it stores into with its stores written, as a list of pieces
  the symbolic run finds.
-/
import proofs.«169600_j28226525069938_2_alg».proof.Proof.KiR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) :
    { LS0 : List (View.Piece (Elt F) S64x128 .f32) //
      ∀ (E : Set ℕ) (K : PUnit → sProp 𝕄),
        iprop(owns (c : Thread nD τ) arg3 fullShare x0 ∗ owns (c : Thread nD τ) arg4 fullShare x1 ∗ (∃ d, owns (c : Thread nD τ) arg6 fullShare d)
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg3 harg3 arg4 harg4 arg5 harg5 arg6 harg6) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KiR1RunB.lean ====
/-
  The second kernel's body run whole in one control case (a middle block of the summed axis: this block's sums are added to the accumulator): from the buffers it reads held at given
  contents, it runs to its return leaving each buffer it stores into with its stores written, as a list of pieces
  the symbolic run finds.
-/
import proofs.«169600_j28226525069938_2_alg».proof.Proof.KiR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) :
    { LS0 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg6 fullShare xs0
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg3 harg3 arg4 harg4 arg5 harg5 arg6 harg6) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KiR1RunC.lean ====
/-
  The second kernel's body run whole in one control case (the last block of the summed axis: this block's sums are added, then minus the square root is stored): from the buffers it reads held at given
  contents, it runs to its return leaving each buffer it stores into with its stores written, as a list of pieces
  the symbolic run finds.
-/
import proofs.«169600_j28226525069938_2_alg».proof.Proof.KiR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) :
    Σ' (L2 : List (View.Piece (Elt F) S64x128 .f32)), { LS0 : List (View.Piece (Elt F) S64x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg3 harg3 arg4 harg4 arg5 harg5 arg6 harg6) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Hand

end
-- ==== Proof.KiR1Frame.lean ====
/-
  The second kernel over the whole grid: what its accumulator and its result buffer hold after each point, the
  invariant between points (the accumulator at the running sum over the blocks of the summed axis seen so far for
  the current pair of tiles, everything else of the core's scoped memory untouched), the pipeline's proof data at
  the contents the region is entered with, and the body's obligation at every point.
-/
import proofs.«169600_j28226525069938_2_alg».proof.Proof.KiR1RunA
import proofs.«169600_j28226525069938_2_alg».proof.Proof.KiR1RunB
import proofs.«169600_j28226525069938_2_alg».proof.Proof.KiR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) (y : S64x128.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S64x128.size (by sl_kernel_rfl) y

/-- The accumulator after a first block of the summed axis. -/
def sout1_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) : Vec F S64x128 .f32 :=
  VS1.read (Elt F) (VS1.writes (Elt F) VS1.junk (kernelRun1_A c i arg3 harg3 arg4 harg4 arg5 harg5 arg6 harg6 hc0 hc1 x0 x1).1)

theorem scover1_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) (y : S64x128.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S64x128.size (by sl_kernel_rfl) y

/-- The accumulator after a middle block, over what the point before left. -/
def sout1_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) : Vec F S64x128 .f32 :=
  VS1.read (Elt F) (VS1.writes (Elt F) VS1.junk (kernelRun1_B c i arg3 harg3 arg4 harg4 arg5 harg5 arg6 harg6 hc0 hc1 x0 x1 xs0).1)

theorem cover1_C_2 (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) (y : S64x128.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S64x128.size (by sl_kernel_rfl) y
theorem scover1_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) (y : S64x128.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S64x128.size (by sl_kernel_rfl) y

/-- The result tile's buffer after a last block. -/
def out1_C_2 (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) : Vec F S64x128 .f32 :=
  VO1_2.read (Elt F) (VO1_2.writes (Elt F) VO1_2.junk (kernelRun1_C c i arg3 harg3 arg4 harg4 arg5 harg5 arg6 harg6 hc0 hc1 x0 x1 xs0).1)
/-- The accumulator after a last block. -/
def sout1_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) : Vec F S64x128 .f32 :=
  VS1.read (Elt F) (VS1.writes (Elt F) VS1.junk (kernelRun1_C c i arg3 harg3 arg4 harg4 arg5 harg5 arg6 harg6 hc0 hc1 x0 x1 xs0).2.1)

/-! ## The accumulation over the grid -/

/-- The accumulator after the body at position n: at a first block of the summed axis that case's contents (whatever
    was there before), otherwise the case over what the position before left. -/
def acc1 (c : Dev nD) : (n : ℕ) → n < cfg1.N → Vec F S64x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩)
    else if h3 : (n + 1) % 4 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h3) (iblk1 V c 0 ⟨n + 1, hn⟩) (iblk1 V c 1 ⟨n + 1, hn⟩) (acc1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h3 ((hcond1_1 ⟨n + 1, hn⟩).mp h)) (iblk1 V c 0 ⟨n + 1, hn⟩) (iblk1 V c 1 ⟨n + 1, hn⟩) (acc1 c n (Nat.lt_of_succ_lt hn))

theorem acc1_A (c : Dev nD) (t : Fin cfg1.N) (h0 : t.val % 4 = 0) (h3 : ¬t.val % 4 = 3) :
    acc1 V c t.val t.isLt = sout1_A c (grid1.coords t) (ms1_0 t) (hs1_0 t) (ms1_1 t) (hs1_1 t) (ms1_2 t) (hs1_2 t) scM1 (Memref.isWhole_whole _) ((hcond1_0 t).mpr h0) (fun h => h3 ((hcond1_1 t).mp h)) (iblk1 V c 0 t) (iblk1 V c 1 t) := by
  obtain ⟨n, hn⟩ := t
  cases n with
  | zero => rfl
  | succ n => exact (dif_pos h0).trans rfl

theorem acc1_B (c : Dev nD) (t : Fin cfg1.N) (h0 : ¬t.val % 4 = 0) (h3 : ¬t.val % 4 = 3) :
    acc1 V c t.val t.isLt = sout1_B c (grid1.coords t) (ms1_0 t) (hs1_0 t) (ms1_1 t) (hs1_1 t) (ms1_2 t) (hs1_2 t) scM1 (Memref.isWhole_whole _) (fun h => h0 ((hcond1_0 t).mp h)) (fun h => h3 ((hcond1_1 t).mp h)) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem acc1_C (c : Dev nD) (t : Fin cfg1.N) (h0 : ¬t.val % 4 = 0) (h3 : t.val % 4 = 3) :
    acc1 V c t.val t.isLt = sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h3) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The result tile's buffer after the body at point t: at a last block what that case stores (over the accumulator
    the point before left); elsewhere the window is idle and not written back, and the value here is never consulted. -/
def res1_2 (c : Dev nD) (t : Fin cfg1.N) : Vec F S64x128 .f32 :=
  if h3 : t.val % 4 = 3 then
    out1_C_2 c (grid1.coords t) (ms1_0 t) (hs1_0 t) (ms1_1 t) (hs1_1 t) (ms1_2 t) (hs1_2 t) scM1 (Memref.isWhole_whole _) (fun h => absurd ((hcond1_0 t).mp h) (by omega)) ((hcond1_1 t).mpr h3)
      (iblk1 V c 0 t) (iblk1 V c 1 t) (acc1 V c (t.val - 1) (Nat.lt_of_le_of_lt (Nat.sub_le _ _) t.isLt))
  else VO1_2.read (Elt F) VO1_2.junk

/-! ## The invariant between points -/

def PhiS1 (c : Dev nD) : (n : ℕ) → n ≤ cfg1.N → sProp 𝕄
  | 0, _ => Pipeline.ΦA spec1 c
  | n + 1, hn => iprop(others1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(others1 c (owns (c : Thread nD τ) scM1 fullShare (acc1 V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => res1_2 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = res1_2 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the position of its block of the summed axis. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  by_cases h3 : t.val % 4 = 3
  · -- a last block
    have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h3)], after1_2]
    rw [acc1_C V c t h0 h3]
    unfold res1_2; rw [dif_pos h3]
    unfold out1_C_2 sout1_C; (try dsimp only)
    rw [PhiS1_castSucc V c t, PhiS1_pos V c _ _ hz]
    iintro ⟨⟨HO, Hg⟩, Ho, ⟨%d0, H0⟩, ⟨%d1, H1⟩, ⟨%d2, H2⟩⟩
    ihave HO' := (others1_out c _) $$ HO
    icases HO' with ⟨HS0, HR⟩
    iapply ((kernelRun1_C c (grid1.coords t) _ _ _ _ _ _ _ _ (fun h => h0 ((hcond1_0 t).mp h)) ((hcond1_1 t).mpr h3) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · iapply (others1_in c _)
        isplitl [HS0]
        · unfold owns; iexists _; isplitr
          swap; · iexact HS0
          ipureintro; exact View.read_writes_of_cover _ _ _ _ _ (scover1_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · -- not a last block: the result's window is idle and not written back
    rw [Dat.leavesExact_idle (dat1 V c) 2 t (idleAt1_2 t (fun h => h3 ((hcond1_1 t).mp h))) (noFlush1_2 t (fun h => h3 ((hcond1_1 t).mp h)))]
    by_cases h0 : t.val % 4 = 0
    · -- a first block
      rw [acc1_A V c t h0 h3]
      unfold sout1_A; (try dsimp only)
      by_cases hz : t.val = 0
      · rw [PhiS1_castSucc V c t, PhiS1_zero V c _ _ hz, PhiA1_eq]
        iintro ⟨⟨HO, Hg⟩, Ho, ⟨%d0, H0⟩, ⟨%d1, H1⟩, ⟨%d2, H2⟩⟩
        ihave HO' := (others1_out c _) $$ HO
        icases HO' with ⟨HS0, HR⟩
        iapply ((kernelRun1_A c (grid1.coords t) _ _ _ _ _ _ _ _ ((hcond1_0 t).mpr h0) (fun h => h3 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · iapply (others1_in c _)
            isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨HO, Hg⟩, Ho, ⟨%d0, H0⟩, ⟨%d1, H1⟩, ⟨%d2, H2⟩⟩
        ihave HO' := (others1_out c _) $$ HO
        icases HO' with ⟨HS0, HR⟩
        iapply ((kernelRun1_A c (grid1.coords t) _ _ _ _ _ _ _ _ ((hcond1_0 t).mpr h0) (fun h => h3 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · iapply (others1_in c _)
            isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
    · -- a middle block
      have hz : t.val ≠ 0 := by omega
      rw [acc1_B V c t h0 h3]
      unfold sout1_B; (try dsimp only)
      rw [PhiS1_castSucc V c t, PhiS1_pos V c _ _ hz]
      iintro ⟨⟨HO, Hg⟩, Ho, ⟨%d0, H0⟩, ⟨%d1, H1⟩, ⟨%d2, H2⟩⟩
      ihave HO' := (others1_out c _) $$ HO
      icases HO' with ⟨HS0, HR⟩
      iapply ((kernelRun1_B c (grid1.coords t) _ _ _ _ _ _ _ _ (fun h => h0 ((hcond1_0 t).mp h)) (fun h => h3 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · iapply (others1_in c _)
          isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HO, Hg⟩
  isplitl [HO]
  · ihave HO' := (others1_out c _) $$ HO
    icases HO' with ⟨HS0, HR⟩
    iapply (others1_in c _)
    isplitl [HS0]; · iexists _; iexact HS0
    iexact HR
  iexact Hg

end Cert.KernelIdeal.Hand

end
-- ==== Proof.KiMain.lean ====
/-
  The whole program as four segments — the two reshapes of the bias vectors, the first kernel's region, the second
  kernel's region, the concatenation of the two results — and its run: every weakly fair execution from any memory
  terminates without a fault, and every final memory holds each unscoped buffer of the core at the contents the
  segments leave one after another (a fold from the launch memory: a host stretch's operations applied, a region's
  arrays at what its write-backs leave).
-/
import proofs.«169600_j28226525069938_2_alg».proof.Proof.KiR0Frame
import proofs.«169600_j28226525069938_2_alg».proof.Proof.KiR1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the two reshapes (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit (it is entered from the first region's exit contents). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the concatenation (the end). -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

-- applying a library lemma stated over the pinned configuration unifies with the printed configuration only when
-- unification may unfold plain definitions in a metavariable's type
set_option backward.isDefEq.respectTransparency.types false in
/-- The region of kernel 0 over the thread state: entered from every unscoped buffer at the contents before it, left
    at the contents after it. Its arrays are split out of the unscoped buffers and put back at what the pipeline
    leaves; the generator register and the core's scoped rest go into the kernel's invariant and come back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (pdats m 0 c).Φ 0 := hin0 (V1 m) c
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest (Ix := Unit) (Name := ℕ) (U := UR sig nD τ) (Lvl := ℕ) (Val := Elt F) spec0 c ∗ ∃ r, prngReg c r) : sProp 𝕄) := hout0 (V1 m) c
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed configuration only when
-- unification may unfold plain definitions in a metavariable's type
set_option backward.isDefEq.respectTransparency.types false in
/-- The region of kernel 1 over the thread state: entered from every unscoped buffer at the contents before it, left
    at the contents after it. Its arrays are split out of the unscoped buffers and put back at what the pipeline
    leaves; the generator register and the core's scoped rest go into the kernel's invariant and come back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄) ⊢ (pdats m 1 c).Φ 0 := hin1 (V2 m) c
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest (Ix := Unit) (Name := ℕ) (U := UR sig nD τ) (Lvl := ℕ) (Val := Elt F) spec1 c ∗ ∃ r, prngReg c r) : sProp 𝕄) := hout1 (V2 m) c
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. Every weakly fair execution terminates, nothing faulting, and every final memory holds every unscoped
    buffer of core c at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄) ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KiArgs.lean ====
/-
  The argument arrays end as launched: no host operation writes one, the first kernel reads four of them through
  input windows (whose arrays the pipeline leaves as it found them) and the second kernel one; every other region
  bypasses them.
-/
import proofs.«169600_j28226525069938_2_alg».proof.Proof.KiMain
import proofs.«169600_j28226525069938_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h
/-- An input window's array is left as found by the first kernel's pipeline, -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- and by the second kernel's. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W4_main_arg0 (c : Dev nD) : W4 m c (Proc.devRef .tc main_arg0) = m ((c : Thread nD τ).loc main_arg0) :=
  (W4_of m c main_arg0 (by decide)).trans <| (W3_of_ne m c main_arg0 (by decide)).trans <| (W2_in m c 0 rfl).trans <| (W1_of m c main_arg0 (by decide)).trans rfl
theorem W4_main_arg1 (c : Dev nD) : W4 m c (Proc.devRef .tc main_arg1) = m ((c : Thread nD τ).loc main_arg1) :=
  (W4_of m c main_arg1 (by decide)).trans <| (W3_of_ne m c main_arg1 (by decide)).trans <| (W2_in m c 5 rfl).trans <| (W1_of m c main_arg1 (by decide)).trans rfl
theorem W4_main_arg2 (c : Dev nD) : W4 m c (Proc.devRef .tc main_arg2) = m ((c : Thread nD τ).loc main_arg2) :=
  (W4_of m c main_arg2 (by decide)).trans <| (W3_in m c 1 rfl).trans <| (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of m c main_arg3 (by decide)).trans <| (W3_of_ne m c main_arg3 (by decide)).trans <| (W2_in m c 1 rfl).trans <| (W1_of m c main_arg3 (by decide)).trans rfl
theorem W4_main_arg4 (c : Dev nD) : W4 m c (Proc.devRef .tc main_arg4) = m ((c : Thread nD τ).loc main_arg4) :=
  (W4_of m c main_arg4 (by decide)).trans <| (W3_of_ne m c main_arg4 (by decide)).trans <| (W2_of_ne m c main_arg4 (by decide)).trans <| (W1_of m c main_arg4 (by decide)).trans rfl
theorem W4_main_arg5 (c : Dev nD) : W4 m c (Proc.devRef .tc main_arg5) = m ((c : Thread nD τ).loc main_arg5) :=
  (W4_of m c main_arg5 (by decide)).trans <| (W3_of_ne m c main_arg5 (by decide)).trans <| (W2_in m c 3 rfl).trans <| (W1_of m c main_arg5 (by decide)).trans rfl
theorem W4_main_arg6 (c : Dev nD) : W4 m c (Proc.devRef .tc main_arg6) = m ((c : Thread nD τ).loc main_arg6) :=
  (W4_of m c main_arg6 (by decide)).trans <| (W3_of_ne m c main_arg6 (by decide)).trans <| (W2_of_ne m c main_arg6 (by decide)).trans <| (W1_of m c main_arg6 (by decide)).trans rfl

/-- The frame: every weakly fair execution terminates without a fault and each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.KernelIdeal.Hand

end
-- ==== Proof.KbR0Runs.lean ====
/-
  The first kernel (a matrix product accumulated over four blocks of the contracted axis, then the second
  layer and the positive score at the last block): what its per-case runs share.

  The grid has four points k = 0..3. The body zeroes its accumulator when k = 0, adds this block's
  product at every point, and at k = 3 finishes: three control cases (first, middle, last).
  The two results are stored at the last point only; elsewhere their buffers are left as found.
-/
import proofs.«169600_j28226525069938_2_alg».proof.Proof.Gen.Kernel.Launch
import proofs.«169600_j28226525069938_2_alg».proof.Proof.Gen.Kernel.Skeleton
import proofs.«169600_j28226525069938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first block": k = 0. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last block": k = 3. -/
abbrev cond0_1 (i : grid0.Coords) : Prop := k0_cond2 i = 1#1
theorem hcond0_1 : ∀ t : Fin cfg0.N, cond0_1 (grid0.coords t) ↔ t.val = 3 :=
  (by decide +kernel : ∀ t : Fin grid0.N, cond0_1 (grid0.coords t) ↔ t.val = 3)

/-! ## Where the result windows are idle -/

theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
/-- The accumulator: a whole scoped buffer of the kernel's own. -/
abbrev scM0 : Memref sig .tc .vmem S256x2048 .f32 := Memref.whole cc0_scratch0
abbrev VS0 : View sig .tc .vmem S256x2048 .f32 := scM0.view
abbrev VO0_6 : View sig .tc .vmem S256x512 .f32 := (Memref.whole cc0_stg6_0 : Memref sig .tc .vmem S256x512 .f32).view
abbrev VO0_7 : View sig .tc .vmem S256x1 .f32 := (Memref.whole cc0_stg7_0 : Memref sig .tc .vmem S256x1 .f32).view

/-- The scoped buffers of the other kernel, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-! ## The windows' blocks, at the contents the region is entered with -/

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (a window whose block index does
    not move is fetched once and still holds the same block). One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.KbR0RunA.lean ====
/-
  The first kernel's body run whole in one control case (the first block: the accumulator is zeroed, then this block's product is added): from the buffers it reads held at given
  contents, it runs to its return leaving each buffer it stores into with its stores written, as a list of pieces
  the symbolic run finds.
-/
import proofs.«169600_j28226525069938_2_alg».proof.Proof.KbR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case "first block". The accumulator may hold anything on entry. -/
noncomputable def kernelRun0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.KbR0RunB.lean ====
/-
  The first kernel's body run whole in one control case (a middle block: this block's product is added to the accumulator): from the buffers it reads held at given
  contents, it runs to its return leaving each buffer it stores into with its stores written, as a list of pieces
  the symbolic run finds.
-/
import proofs.«169600_j28226525069938_2_alg».proof.Proof.KbR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case "middle block". The accumulator holds what the point before left. -/
noncomputable def kernelRun0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) :
    { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.KbR0RunC.lean ====
/-
  The first kernel's body run whole in one control case (the last block: the product is added, then the second layer and the positive score are computed and stored): from the buffers it reads held at given
  contents, it runs to its return leaving each buffer it stores into with its stores written, as a list of pieces
  the symbolic run finds.
-/
import proofs.«169600_j28226525069938_2_alg».proof.Proof.KbR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- Case "last block". The accumulator holds what the point before left; the two result buffers may hold anything. -/
noncomputable def kernelRun0_C (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    Σ' (L6 : List (View.Piece (Elt F) S256x512 .f32)) (L7 : List (View.Piece (Elt F) S256x1 .f32)), { LS0 : List (View.Piece (Elt F) S256x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc0__mm_kernel_eq_skeleton]; unfold cc0__mm_kernel_skel
    unfold owns
    iintro ⟨⟨%f0, %hf0, Hf0⟩, ⟨%f1, %hf1, Hf1⟩, ⟨%f2, %hf2, Hf2⟩, ⟨%f3, %hf3, Hf3⟩, ⟨%f4, %hf4, Hf4⟩, ⟨%f5, %hf5, Hf5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | exact hc0 | exact hc1)
    sl_step
    iapply Hk
    isplitl [Hf0]
    · iexists _; isplitr; · ipureintro; exact harg1.read_unread _
      iexact Hf0
    isplitl [Hf1]
    · iexists _; isplitr; · ipureintro; exact harg2.read_unread _
      iexact Hf1
    isplitl [Hf2]
    · iexists _; isplitr; · ipureintro; exact harg3.read_unread _
      iexact Hf2
    isplitl [Hf3]
    · iexists _; isplitr; · ipureintro; exact harg4.read_unread _
      iexact Hf3
    isplitl [Hf4]
    · iexists _; isplitr; · ipureintro; exact harg5.read_unread _
      iexact Hf4
    isplitl [Hf5]
    · iexists _; isplitr; · ipureintro; exact harg6.read_unread _
      iexact Hf5
    isplitl [H6]; · iexists _; iexact H6
    isplitl [H7]; · iexists _; iexact H7
    iexists _; iexact HS0

end Cert.Kernel.Hand

end
-- ==== Proof.KbR0Frame.lean ====
/-
  The first kernel over the whole grid: what its accumulator and its two result buffers hold after each point,
  the invariant between points (the accumulator at the running sum of the blocks' products, everything else of the
  core's scoped memory untouched), the pipeline's proof data at the contents the region is entered with, and the
  body's obligation at every point.
-/
import proofs.«169600_j28226525069938_2_alg».proof.Proof.KbR0RunA
import proofs.«169600_j28226525069938_2_alg».proof.Proof.KbR0RunB
import proofs.«169600_j28226525069938_2_alg».proof.Proof.KbR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) (y : S256x2048.Idx) :
    ∃ pc ∈ (kernelRun0_A c i arg1 harg1 arg2 harg2 arg3 harg3 arg4 harg4 arg5 harg5 arg6 harg6 arg7 harg7 arg8 harg8 arg9 harg9 hc0 hc1 x0 x1).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1).1 S256x2048.size (by sl_kernel_rfl) y

/-- The accumulator after the first block. -/
def sout0_A (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) : Vec F S256x2048 .f32 :=
  VS0.read (Elt F) (VS0.writes (Elt F) VS0.junk (kernelRun0_A c i arg1 harg1 arg2 harg2 arg3 harg3 arg4 harg4 arg5 harg5 arg6 harg6 arg7 harg7 arg8 harg8 arg9 harg9 hc0 hc1 x0 x1).1)

theorem scover0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) (y : S256x2048.Idx) :
    ∃ pc ∈ (kernelRun0_B c i arg1 harg1 arg2 harg2 arg3 harg3 arg4 harg4 arg5 harg5 arg6 harg6 arg7 harg7 arg8 harg8 arg9 harg9 hc0 hc1 x0 x1 xs0).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 xs0).1 S256x2048.size (by sl_kernel_rfl) y

/-- The accumulator after a middle block, over what the point before left. -/
def sout0_B (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) : Vec F S256x2048 .f32 :=
  VS0.read (Elt F) (VS0.writes (Elt F) VS0.junk (kernelRun0_B c i arg1 harg1 arg2 harg2 arg3 harg3 arg4 harg4 arg5 harg5 arg6 harg6 arg7 harg7 arg8 harg8 arg9 harg9 hc0 hc1 x0 x1 xs0).1)

section CaseC
variable (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32)

theorem cover0_C_6 (y : S256x512.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).1 S256x512.size (by sl_kernel_rfl) y
theorem cover0_C_7 (y : S256x1.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.1 S256x1.size (by sl_kernel_rfl) y
theorem scover0_C (y : S256x2048.Idx) :
    ∃ pc ∈ (kernelRun0_C c i arg1 harg1 arg2 harg2 arg3 harg3 arg4 harg4 arg5 harg5 arg6 harg6 arg7 harg7 arg8 harg8 arg9 harg9 hc0 hc1 x0 x1 x2 x3 x4 x5 xs0).2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 x5 xs0).2.2.1 S256x2048.size (by sl_kernel_rfl) y

/-- The first result's buffer (the embedding) after the last block. -/
def out0_C_6 : Vec F S256x512 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 x5 xs0).1)
/-- The second result's buffer (the positive scores) after the last block. -/
def out0_C_7 : Vec F S256x1 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 hc0 hc1 x0 x1 x2 x3 x4 x5 xs0).2.1)
/-- The accumulator after the last block. -/
def sout0_C : Vec F S256x2048 .f32 :=
  VS0.read (Elt F) (VS0.writes (Elt F) VS0.junk (kernelRun0_C c i arg1 harg1 arg2 harg2 arg3 harg3 arg4 harg4 arg5 harg5 arg6 harg6 arg7 harg7 arg8 harg8 arg9 harg9 hc0 hc1 x0 x1 x2 x3 x4 x5 xs0).2.2.1)
end CaseC

/-! ## The accumulation over the grid -/

/-- The accumulator after the body at position n: the first block's case at 0, then each case over what the
    position before left. -/
def acc0 (c : Dev nD) : (n : ℕ) → n < cfg0.N → Vec F S256x2048 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr rfl) (fun h => (fun h' => by (try dsimp only at h'); omega) ((hcond0_1 ⟨0, hn⟩).mp h)) (iblk0 V c 0 ⟨0, hn⟩) (iblk0 V c 1 ⟨0, hn⟩)
  | n + 1, hn =>
    if h3 : n + 1 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => absurd ((hcond0_0 ⟨n + 1, hn⟩).mp h) (Nat.succ_ne_zero n)) ((hcond0_1 ⟨n + 1, hn⟩).mpr h3)
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (acc0 c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => absurd ((hcond0_0 ⟨n + 1, hn⟩).mp h) (Nat.succ_ne_zero n)) (fun h => h3 ((hcond0_1 ⟨n + 1, hn⟩).mp h))
        (iblk0 V c 0 ⟨n + 1, hn⟩) (iblk0 V c 1 ⟨n + 1, hn⟩) (acc0 c n (Nat.lt_of_succ_lt hn))

theorem acc0_A (c : Dev nD) (t : Fin cfg0.N) (h0 : t.val = 0) (h3 : ¬t.val = 3) :
    acc0 V c t.val t.isLt = sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h3 ((hcond0_1 t).mp h)) (iblk0 V c 0 t) (iblk0 V c 1 t) := by
  obtain ⟨n, hn⟩ := t
  cases n with
  | zero => rfl
  | succ n => exact absurd h0 (Nat.succ_ne_zero n)

theorem acc0_B (c : Dev nD) (t : Fin cfg0.N) (h0 : ¬t.val = 0) (h3 : ¬t.val = 3) :
    acc0 V c t.val t.isLt = sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h3 ((hcond0_1 t).mp h)) (iblk0 V c 0 t) (iblk0 V c 1 t)
      (acc0 V c (t.val - 1) (Nat.lt_of_le_of_lt (Nat.sub_le _ _) t.isLt)) := by
  obtain ⟨n, hn⟩ := t
  cases n with
  | zero => exact absurd rfl h0
  | succ n => exact (dif_neg h3).trans rfl

theorem acc0_C (c : Dev nD) (t : Fin cfg0.N) (h0 : ¬t.val = 0) (h3 : t.val = 3) :
    acc0 V c t.val t.isLt = sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h3) (iblk0 V c 0 t) (iblk0 V c 1 t) (iblk0 V c 2 t) (iblk0 V c 3 t) (iblk0 V c 4 t) (iblk0 V c 5 t)
      (acc0 V c (t.val - 1) (Nat.lt_of_le_of_lt (Nat.sub_le _ _) t.isLt)) := by
  obtain ⟨n, hn⟩ := t
  cases n with
  | zero => exact absurd rfl h0
  | succ n => exact (dif_pos h3).trans rfl

/-- The first result's buffer after the body at point t: at the last point what that case stores (over the accumulator
    the point before left); elsewhere the window is idle and not written back, and the value here is never consulted. -/
def res0_6 (c : Dev nD) (t : Fin cfg0.N) : Vec F S256x512 .f32 :=
  if h3 : t.val = 3 then
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => absurd ((hcond0_0 t).mp h) (by omega)) ((hcond0_1 t).mpr h3)
      (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt))
  else VO0_6.read (Elt F) VO0_6.junk
/-- The second result's buffer after the body at point t, likewise. -/
def res0_7 (c : Dev nD) (t : Fin cfg0.N) : Vec F S256x1 .f32 :=
  if h3 : t.val = 3 then
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => absurd ((hcond0_0 t).mp h) (by omega)) ((hcond0_1 t).mpr h3)
      (iblk0 V c 0 t) (iblk0 V c 1 t) (iblk0 V c 2 t) (iblk0 V c 3 t) (iblk0 V c 4 t) (iblk0 V c 5 t) (acc0 V c (t.val - 1) (Nat.lt_of_le_of_lt (Nat.sub_le _ _) t.isLt))
  else VO0_7.read (Elt F) VO0_7.junk

/-! ## The invariant between points -/

/-- Before position n: at the start the class's invariant (every scoped buffer that is no staging buffer at anything);
    afterwards the accumulator at what the position before left, the other kernel's scoped buffers at anything. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-! ## The pipeline's proof data -/

/-- The arrays as the region finds them; after the body at point t each input's buffer at its block and the results'
    at res0_6 / res0_7; the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => res0_6 V c t
    | ⟨7, _⟩ => res0_7 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = res0_6 V c t := by dsimp only [dat0]
theorem after0_7 (c : Dev nD) (t : Fin cfg0.N) : (dat0 V c).after 7 t = res0_7 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The inputs' buffers hold their blocks; the point's position says which case runs; the
    invariant hands the body the accumulator at what the point before left (at anything before the first point) and
    takes it back at this point's contents; the results' buffers are handed back untouched except at the last point,
    where they hold what that case stores; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rfl, after0_0]
  rw [show (dat0 V c).leavesExact 1 t = owns (c : Thread nD τ) (ms0_1 t) fullShare ((dat0 V c).after 1 t) from by
    unfold Dat.leavesExact; rfl, after0_1]
  rw [show (dat0 V c).leavesExact 2 t = owns (c : Thread nD τ) (ms0_2 t) fullShare ((dat0 V c).after 2 t) from by
    unfold Dat.leavesExact; rfl, after0_2]
  rw [show (dat0 V c).leavesExact 3 t = owns (c : Thread nD τ) (ms0_3 t) fullShare ((dat0 V c).after 3 t) from by
    unfold Dat.leavesExact; rfl, after0_3]
  rw [show (dat0 V c).leavesExact 4 t = owns (c : Thread nD τ) (ms0_4 t) fullShare ((dat0 V c).after 4 t) from by
    unfold Dat.leavesExact; rfl, after0_4]
  rw [show (dat0 V c).leavesExact 5 t = owns (c : Thread nD τ) (ms0_5 t) fullShare ((dat0 V c).after 5 t) from by
    unfold Dat.leavesExact; rfl, after0_5]
  by_cases h3 : t.val = 3
  · -- the last block
    have h0 : ¬t.val = 0 := by omega
    rw [show (dat0 V c).leavesExact 6 t = owns (c : Thread nD τ) (ms0_6 t) fullShare ((dat0 V c).after 6 t) from by
      unfold Dat.leavesExact; rw [liveAt0_6 t ((hcond0_1 t).mpr h3)], after0_6]
    rw [show (dat0 V c).leavesExact 7 t = owns (c : Thread nD τ) (ms0_7 t) fullShare ((dat0 V c).after 7 t) from by
      unfold Dat.leavesExact; rw [liveAt0_7 t ((hcond0_1 t).mpr h3)], after0_7]
    rw [acc0_C V c t h0 h3]
    unfold res0_6 res0_7; rw [dif_pos h3, dif_pos h3]
    unfold out0_C_6 out0_C_7 sout0_C; (try dsimp only)
    rw [PhiS0_castSucc V c t, PhiS0_pos V c _ _ h0]
    iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ (fun h => h0 ((hcond0_0 t).mp h)) ((hcond0_1 t).mpr h3) (iblk0 V c 0 t) (iblk0 V c 1 t) (iblk0 V c 2 t) (iblk0 V c 3 t) (iblk0 V c 4 t) (iblk0 V c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 HB Hg]
    · isplitl [HS0 HB]
      · isplitl [HS0]
        · unfold owns; iexists _; isplitr
          swap; · iexact HS0
          ipureintro; exact View.read_writes_of_cover _ _ _ _ _ (scover0_C c _ _ _ _ _ _ _ _ _ _ _ _ _ _ _ _ _ _ _ _ _ _ _ _ _ _ _ _)
        iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _)
  · -- not the last block: the results' windows are idle and not written back
    rw [Dat.leavesExact_idle (dat0 V c) 6 t (idleAt0_6 t (fun h => h3 ((hcond0_1 t).mp h))) (noFlush0_6 t (fun h => h3 ((hcond0_1 t).mp h)))]
    rw [Dat.leavesExact_idle (dat0 V c) 7 t (idleAt0_7 t (fun h => h3 ((hcond0_1 t).mp h))) (noFlush0_7 t (fun h => h3 ((hcond0_1 t).mp h)))]
    by_cases h0 : t.val = 0
    · -- the first block
      rw [acc0_A V c t h0 h3]
      unfold sout0_A; (try dsimp only)
      rw [PhiS0_castSucc V c t, PhiS0_zero V c _ _ h0, PhiA0_eq]
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h3 ((hcond0_1 t).mp h)) (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_A c _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · -- a middle block
      rw [acc0_B V c t h0 h3]
      unfold sout0_B; (try dsimp only)
      rw [PhiS0_castSucc V c t, PhiS0_pos V c _ _ h0]
      iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h3 ((hcond0_1 t).mp h)) (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 HB Hg]
      · isplitl [HS0 HB]
        · isplitl [HS0]
          · unfold owns; iexists _; isplitr
            swap; · iexact HS0
            ipureintro; exact View.read_writes_of_cover _ _ _ _ _ (scover0_B c _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA0_eq]
  iintro ⟨⟨HS0, HB⟩, Hg⟩
  isplitl [HS0 HB]
  · isplitl [HS0]
    · iexists _; iexact HS0
    iexact HB
  iexact Hg

end Cert.Kernel.Hand

end
-- ==== Proof.KbR1Runs.lean ====
/-
  The second kernel (for a tile of 64 rows against a tile of 128 rows, the sum over a block of 128 coordinates of
  the squared positive parts of the differences, accumulated over four blocks; at the last block minus the square
  root is stored): what its per-case runs share.

  The grid has 4 × 4 × 4 points; the last coordinate d = 0..3 is the block of the summed axis and varies
  fastest, so point t has d = t mod 4. The body zeroes its accumulator when d = 0, adds this block's sums at
  every point, and at d = 3 stores the result tile: three control cases. The result is stored, and written back,
  at the points with d = 3 only; elsewhere its buffer is left as found.
-/
import proofs.«169600_j28226525069938_2_alg».proof.Proof.Gen.Kernel.Launch
import proofs.«169600_j28226525069938_2_alg».proof.Proof.Gen.Kernel.Skeleton
import proofs.«169600_j28226525069938_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, decided over the grid -/

/-- "This is the first block of the summed axis": d = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last block of the summed axis": d = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the result window is idle -/

theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S64x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S64x128 .f32 := Memref.whole cc1_scratch0
abbrev VS1 : View sig .tc .vmem S64x128 .f32 := scM1.view
abbrev VO1_2 : View sig .tc .vmem S64x128 .f32 := (Memref.whole cc1_stg2_0 : Memref sig .tc .vmem S64x128 .f32).view

/-- The scoped buffers of the other kernel, each whole at some contents, with the accumulator's state X last:
    they ride along untouched. -/
def others1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ X)

/-- The same buffers without the accumulator. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f))

/-- The accumulator's state taken out of the chain, -/
theorem others1_out (c : Dev nD) (X : sProp 𝕄) : others1 c X ⊢ iprop(X ∗ rest1 c) := by
  unfold others1 rest1
  iintro ⟨H0, H1, H2, H3, H4, H5, H6, H7, H8, H9, H10, HX⟩
  isplitl [HX]; · iexact HX
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- and put back. -/
theorem others1_in (c : Dev nD) (X : sProp 𝕄) : iprop(X ∗ rest1 c) ⊢ others1 c X := by
  unfold others1 rest1
  iintro ⟨HX, H0, H1, H2, H3, H4, H5, H6, H7, H8, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HX

/-- The class invariant with the accumulator as a memref owned at some contents. -/
theorem PhiA1_eq (c : Dev nD) :
    (Pipeline.ΦA spec1 c : sProp 𝕄)
      = iprop(others1 c iprop(∃ d, owns (c : Thread nD τ) scM1 fullShare d) ∗ (∃ r, prngReg c r)) := by
  unfold Pipeline.ΦA others1; rw [scopedRest1_eq]; simp only [scM1, owns_whole]; try rfl

/-! ## The windows' blocks, at the contents the region is entered with -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Cert.Kernel.Hand

end
-- ==== Proof.KbR1RunA.lean ====
/-
  The second kernel's body run whole in one control case (the first block of the summed axis: the accumulator is zeroed, then this block's sums are added): from the buffers it reads held at given
  contents, it runs to its return leaving each buffer it stores into with its stores written, as a list of pieces
  the symbolic run finds.
-/
import proofs.«169600_j28226525069938_2_alg».proof.Proof.KbR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) :
    { LS0 : List (View.Piece (Elt F) S64x128 .f32) //
      ∀ (E : Set ℕ) (K : PUnit → sProp 𝕄),
        iprop(owns (c : Thread nD τ) arg3 fullShare x0 ∗ owns (c : Thread nD τ) arg4 fullShare x1 ∗ (∃ d, owns (c : Thread nD τ) arg6 fullShare d)
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg3 harg3 arg4 harg4 arg5 harg5 arg6 harg6) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.KbR1RunB.lean ====
/-
  The second kernel's body run whole in one control case (a middle block of the summed axis: this block's sums are added to the accumulator): from the buffers it reads held at given
  contents, it runs to its return leaving each buffer it stores into with its stores written, as a list of pieces
  the symbolic run finds.
-/
import proofs.«169600_j28226525069938_2_alg».proof.Proof.KbR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) :
    { LS0 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg6 fullShare xs0
            ∗ (iprop(owns (c : Thread nD τ) arg3 fullShare x0 ∗ owns (c : Thread nD τ) arg4 fullShare x1 ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg3 harg3 arg4 harg4 arg5 harg5 arg6 harg6) K } := by
  refine ⟨?_, fun E K => ?run⟩
  case run =>
    simp only [cc1__score_kernel_eq_skeleton]; unfold cc1__score_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.KbR1RunC.lean ====
/-
  The second kernel's body run whole in one control case (the last block of the summed axis: this block's sums are added, then minus the square root is stored): from the buffers it reads held at given
  contents, it runs to its return leaving each buffer it stores into with its stores written, as a list of pieces
  the symbolic run finds.
-/
import proofs.«169600_j28226525069938_2_alg».proof.Proof.KbR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) :
    Σ' (L2 : List (View.Piece (Elt F) S64x128 .f32)), { LS0 : List (View.Piece (Elt F) S64x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__score_kernel i arg3 harg3 arg4 harg4 arg5 harg5 arg6 harg6) K } := by
  refine ⟨?_, ?_, fun E K => ?run⟩
  case run =>
    simp only [cc1__score_kernel_eq_skeleton]; unfold cc1__score_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Hand

end
-- ==== Proof.KbR1Frame.lean ====
/-
  The second kernel over the whole grid: what its accumulator and its result buffer hold after each point, the
  invariant between points (the accumulator at the running sum over the blocks of the summed axis seen so far for
  the current pair of tiles, everything else of the core's scoped memory untouched), the pipeline's proof data at
  the contents the region is entered with, and the body's obligation at every point.
-/
import proofs.«169600_j28226525069938_2_alg».proof.Proof.KbR1RunA
import proofs.«169600_j28226525069938_2_alg».proof.Proof.KbR1RunB
import proofs.«169600_j28226525069938_2_alg».proof.Proof.KbR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) (y : S64x128.Idx) :
    ∃ pc ∈ (kernelRun1_A c i arg3 harg3 arg4 harg4 arg5 harg5 arg6 harg6 hc0 hc1 x0 x1).1, y ∈ pc.1.set :=
  View.cover_of_tiledL (kernelRun1_A c i arg3 harg3 arg4 harg4 arg5 harg5 arg6 harg6 hc0 hc1 x0 x1).1 S64x128.size (by sl_kernel_rfl) y

/-- The accumulator after a first block of the summed axis. -/
def sout1_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) : Vec F S64x128 .f32 :=
  VS1.read (Elt F) (VS1.writes (Elt F) VS1.junk (kernelRun1_A c i arg3 harg3 arg4 harg4 arg5 harg5 arg6 harg6 hc0 hc1 x0 x1).1)

theorem scover1_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) (y : S64x128.Idx) :
    ∃ pc ∈ (kernelRun1_B c i arg3 harg3 arg4 harg4 arg5 harg5 arg6 harg6 hc0 hc1 x0 x1 xs0).1, y ∈ pc.1.set :=
  View.cover_of_tiledL (kernelRun1_B c i arg3 harg3 arg4 harg4 arg5 harg5 arg6 harg6 hc0 hc1 x0 x1 xs0).1 S64x128.size (by sl_kernel_rfl) y

/-- The accumulator after a middle block, over what the point before left. -/
def sout1_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) : Vec F S64x128 .f32 :=
  VS1.read (Elt F) (VS1.writes (Elt F) VS1.junk (kernelRun1_B c i arg3 harg3 arg4 harg4 arg5 harg5 arg6 harg6 hc0 hc1 x0 x1 xs0).1)

theorem cover1_C_2 (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) (y : S64x128.Idx) :
    ∃ pc ∈ (kernelRun1_C c i arg3 harg3 arg4 harg4 arg5 harg5 arg6 harg6 hc0 hc1 x0 x1 xs0).1, y ∈ pc.1.set :=
  View.cover_of_tiledL (kernelRun1_C c i arg3 harg3 arg4 harg4 arg5 harg5 arg6 harg6 hc0 hc1 x0 x1 xs0).1 S64x128.size (by sl_kernel_rfl) y
theorem scover1_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) (y : S64x128.Idx) :
    ∃ pc ∈ (kernelRun1_C c i arg3 harg3 arg4 harg4 arg5 harg5 arg6 harg6 hc0 hc1 x0 x1 xs0).2.1, y ∈ pc.1.set :=
  View.cover_of_tiledL (kernelRun1_C c i arg3 harg3 arg4 harg4 arg5 harg5 arg6 harg6 hc0 hc1 x0 x1 xs0).2.1 S64x128.size (by sl_kernel_rfl) y

/-- The result tile's buffer after a last block. -/
def out1_C_2 (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) : Vec F S64x128 .f32 :=
  VO1_2.read (Elt F) (VO1_2.writes (Elt F) VO1_2.junk (kernelRun1_C c i arg3 harg3 arg4 harg4 arg5 harg5 arg6 harg6 hc0 hc1 x0 x1 xs0).1)
/-- The accumulator after a last block. -/
def sout1_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) : Vec F S64x128 .f32 :=
  VS1.read (Elt F) (VS1.writes (Elt F) VS1.junk (kernelRun1_C c i arg3 harg3 arg4 harg4 arg5 harg5 arg6 harg6 hc0 hc1 x0 x1 xs0).2.1)

/-! ## The accumulation over the grid -/

/-- The accumulator after the body at position n: at a first block of the summed axis that case's contents (whatever
    was there before), otherwise the case over what the position before left. -/
def acc1 (c : Dev nD) : (n : ℕ) → n < cfg1.N → Vec F S64x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h' => by (try dsimp only at h'); omega) ((hcond1_1 ⟨0, hn⟩).mp h)) (iblk1 V c 0 ⟨0, hn⟩) (iblk1 V c 1 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h' => by (try dsimp only at h'); omega) ((hcond1_1 ⟨n + 1, hn⟩).mp h)) (iblk1 V c 0 ⟨n + 1, hn⟩) (iblk1 V c 1 ⟨n + 1, hn⟩)
    else if h3 : (n + 1) % 4 = 3 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h3) (iblk1 V c 0 ⟨n + 1, hn⟩) (iblk1 V c 1 ⟨n + 1, hn⟩) (acc1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h3 ((hcond1_1 ⟨n + 1, hn⟩).mp h)) (iblk1 V c 0 ⟨n + 1, hn⟩) (iblk1 V c 1 ⟨n + 1, hn⟩) (acc1 c n (Nat.lt_of_succ_lt hn))

theorem acc1_A (c : Dev nD) (t : Fin cfg1.N) (h0 : t.val % 4 = 0) (h3 : ¬t.val % 4 = 3) :
    acc1 V c t.val t.isLt = sout1_A c (grid1.coords t) (ms1_0 t) (hs1_0 t) (ms1_1 t) (hs1_1 t) (ms1_2 t) (hs1_2 t) scM1 (Memref.isWhole_whole _) ((hcond1_0 t).mpr h0) (fun h => h3 ((hcond1_1 t).mp h)) (iblk1 V c 0 t) (iblk1 V c 1 t) := by
  obtain ⟨n, hn⟩ := t
  cases n with
  | zero => rfl
  | succ n => exact (dif_pos h0).trans rfl

theorem acc1_B (c : Dev nD) (t : Fin cfg1.N) (h0 : ¬t.val % 4 = 0) (h3 : ¬t.val % 4 = 3) :
    acc1 V c t.val t.isLt = sout1_B c (grid1.coords t) (ms1_0 t) (hs1_0 t) (ms1_1 t) (hs1_1 t) (ms1_2 t) (hs1_2 t) scM1 (Memref.isWhole_whole _) (fun h => h0 ((hcond1_0 t).mp h)) (fun h => h3 ((hcond1_1 t).mp h)) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)

theorem acc1_C (c : Dev nD) (t : Fin cfg1.N) (h0 : ¬t.val % 4 = 0) (h3 : t.val % 4 = 3) :
    acc1 V c t.val t.isLt = sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h3) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h3).trans rfl)

/-- The result tile's buffer after the body at point t: at a last block what that case stores (over the accumulator
    the point before left); elsewhere the window is idle and not written back, and the value here is never consulted. -/
def res1_2 (c : Dev nD) (t : Fin cfg1.N) : Vec F S64x128 .f32 :=
  if h3 : t.val % 4 = 3 then
    out1_C_2 c (grid1.coords t) (ms1_0 t) (hs1_0 t) (ms1_1 t) (hs1_1 t) (ms1_2 t) (hs1_2 t) scM1 (Memref.isWhole_whole _) (fun h => absurd ((hcond1_0 t).mp h) (by omega)) ((hcond1_1 t).mpr h3)
      (iblk1 V c 0 t) (iblk1 V c 1 t) (acc1 V c (t.val - 1) (Nat.lt_of_le_of_lt (Nat.sub_le _ _) t.isLt))
  else VO1_2.read (Elt F) VO1_2.junk

/-! ## The invariant between points -/

def PhiS1 (c : Dev nD) : (n : ℕ) → n ≤ cfg1.N → sProp 𝕄
  | 0, _ => Pipeline.ΦA spec1 c
  | n + 1, hn => iprop(others1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(others1 c (owns (c : Thread nD τ) scM1 fullShare (acc1 V c (n - 1) (by omega))) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => res1_2 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = res1_2 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point, by the position of its block of the summed axis. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rfl, after1_0]
  rw [show (dat1 V c).leavesExact 1 t = owns (c : Thread nD τ) (ms1_1 t) fullShare ((dat1 V c).after 1 t) from by
    unfold Dat.leavesExact; rfl, after1_1]
  by_cases h3 : t.val % 4 = 3
  · -- a last block
    have h0 : ¬t.val % 4 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h3)], after1_2]
    rw [acc1_C V c t h0 h3]
    unfold res1_2; rw [dif_pos h3]
    unfold out1_C_2 sout1_C; (try dsimp only)
    rw [PhiS1_castSucc V c t, PhiS1_pos V c _ _ hz]
    iintro ⟨⟨HO, Hg⟩, Ho, ⟨%d0, H0⟩, ⟨%d1, H1⟩, ⟨%d2, H2⟩⟩
    ihave HO' := (others1_out c _) $$ HO
    icases HO' with ⟨HS0, HR⟩
    iapply ((kernelRun1_C c (grid1.coords t) _ _ _ _ _ _ _ _ (fun h => h0 ((hcond1_0 t).mp h)) ((hcond1_1 t).mpr h3) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · iapply (others1_in c _)
        isplitl [HS0]
        · unfold owns; iexists _; isplitr
          swap; · iexact HS0
          ipureintro; exact View.read_writes_of_cover _ _ _ _ _ (scover1_C c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)
  · -- not a last block: the result's window is idle and not written back
    rw [Dat.leavesExact_idle (dat1 V c) 2 t (idleAt1_2 t (fun h => h3 ((hcond1_1 t).mp h))) (noFlush1_2 t (fun h => h3 ((hcond1_1 t).mp h)))]
    by_cases h0 : t.val % 4 = 0
    · -- a first block
      rw [acc1_A V c t h0 h3]
      unfold sout1_A; (try dsimp only)
      by_cases hz : t.val = 0
      · rw [PhiS1_castSucc V c t, PhiS1_zero V c _ _ hz, PhiA1_eq]
        iintro ⟨⟨HO, Hg⟩, Ho, ⟨%d0, H0⟩, ⟨%d1, H1⟩, ⟨%d2, H2⟩⟩
        ihave HO' := (others1_out c _) $$ HO
        icases HO' with ⟨HS0, HR⟩
        iapply ((kernelRun1_A c (grid1.coords t) _ _ _ _ _ _ _ _ ((hcond1_0 t).mpr h0) (fun h => h3 ((hcond1_1 t).mp h)) (iblk1 V c 0 t) (iblk1 V c 1 t)).2 Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · iapply (others1_in c _)
            isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
      · rw [PhiS1_castSucc V c t, PhiS1_pos V c _ _ hz]
        iintro ⟨⟨HO, Hg⟩, Ho, ⟨%d0, H0⟩, ⟨%d1, H1⟩, ⟨%d2, H2⟩⟩
        ihave HO' := (others1_out c _) $$ HO
        icases HO' with ⟨HS0, HR⟩
        iapply ((kernelRun1_A c (grid1.coords t) _ _ _ _ _ _ _ _ ((hcond1_0 t).mpr h0) (fun h => h3 ((hcond1_1 t).mp h)) (iblk1 V c 0 t) (iblk1 V c 1 t)).2 Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · iapply (others1_in c _)
            isplitl [HS0]
            · unfold owns; iexists _; isplitr
              swap; · iexact HS0
              ipureintro; exact View.read_writes_of_cover _ _ _ _ _ (scover1_A c _ _ _ _ _ _ _ _ _ _ _ _ _)
            iexact HR
          iexact Hg
        isplitl [Ho]; · iexact Ho
        isplitl [H0]; · iexact H0
        isplitl [H1]; · iexact H1
        iexists _; iexact H2
    · -- a middle block
      have hz : t.val ≠ 0 := by omega
      rw [acc1_B V c t h0 h3]
      unfold sout1_B; (try dsimp only)
      rw [PhiS1_castSucc V c t, PhiS1_pos V c _ _ hz]
      iintro ⟨⟨HO, Hg⟩, Ho, ⟨%d0, H0⟩, ⟨%d1, H1⟩, ⟨%d2, H2⟩⟩
      ihave HO' := (others1_out c _) $$ HO
      icases HO' with ⟨HS0, HR⟩
      iapply ((kernelRun1_B c (grid1.coords t) _ _ _ _ _ _ _ _ (fun h => h0 ((hcond1_0 t).mp h)) (fun h => h3 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · iapply (others1_in c _)
          isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HO, Hg⟩
  isplitl [HO]
  · ihave HO' := (others1_out c _) $$ HO
    icases HO' with ⟨HS0, HR⟩
    iapply (others1_in c _)
    isplitl [HS0]; · iexists _; iexact HS0
    iexact HR
  iexact Hg

end Cert.Kernel.Hand

end
-- ==== Proof.KbMain.lean ====
/-
  The whole program as four segments — the two reshapes of the bias vectors, the first kernel's region, the second
  kernel's region, the concatenation of the two results — and its run: every weakly fair execution from any memory
  terminates without a fault, and every final memory holds each unscoped buffer of the core at the contents the
  segments leave one after another (a fold from the launch memory: a host stretch's operations applied, a region's
  arrays at what its write-backs leave).
-/
import proofs.«169600_j28226525069938_2_alg».proof.Proof.KbR0Frame
import proofs.«169600_j28226525069938_2_alg».proof.Proof.KbR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => m (c, b)
/-- After the two reshapes (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit (it is entered from the first region's exit contents). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the concatenation (the end). -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W4 m c) ∗ ∃ r, prngReg c r)

/-! ## The regions as segments -/

-- applying a library lemma stated over the pinned configuration unifies with the printed configuration only when
-- unification may unfold plain definitions in a metavariable's type
set_option backward.isDefEq.respectTransparency.types false in
/-- The region of kernel 0 over the thread state: entered from every unscoped buffer at the contents before it, left
    at the contents after it. Its arrays are split out of the unscoped buffers and put back at what the pipeline
    leaves; the generator register and the core's scoped rest go into the kernel's invariant and come back; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄) ⊢ (pdats m 0 c).Φ 0 := hin0 (V1 m) c
    iintro ⟨Hp, -, Hr⟩
    iapply h
    isplitl [Hr]; · iexact Hr
    iexact Hp
  hout c := by
    rw [Pipeline.ownSems0_none]
    have h : (pdats m 0 c).Φ (Fin.last _) ⊢ (iprop(Pipeline.scopedRest (Ix := Unit) (Name := ℕ) (U := UR sig nD τ) (Lvl := ℕ) (Val := Elt F) spec0 c ∗ ∃ r, prngReg c r) : sProp 𝕄) := hout0 (V1 m) c
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed configuration only when
-- unification may unfold plain definitions in a metavariable's type
set_option backward.isDefEq.respectTransparency.types false in
/-- The region of kernel 1 over the thread state: entered from every unscoped buffer at the contents before it, left
    at the contents after it. Its arrays are split out of the unscoped buffers and put back at what the pipeline
    leaves; the generator register and the core's scoped rest go into the kernel's invariant and come back; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄) ⊢ (pdats m 1 c).Φ 0 := hin1 (V2 m) c
    iintro ⟨Hp, -, Hr⟩
    iapply h
    isplitl [Hr]; · iexact Hr
    iexact Hp
  hout c := by
    rw [Pipeline.ownSems0_none]
    have h : (pdats m 1 c).Φ (Fin.last _) ⊢ (iprop(Pipeline.scopedRest (Ix := Unit) (Name := ℕ) (U := UR sig nD τ) (Lvl := ℕ) (Val := Elt F) spec1 c ∗ ∃ r, prngReg c r) : sProp 𝕄) := hout1 (V2 m) c
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN. Every weakly fair execution terminates, nothing faulting, and every final memory holds every unscoped
    buffer of core c at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄) ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.KbArgs.lean ====
/-
  The argument arrays end as launched: no host operation writes one, the first kernel reads four of them through
  input windows (whose arrays the pipeline leaves as it found them) and the second kernel one; every other region
  bypasses them.
-/
import proofs.«169600_j28226525069938_2_alg».proof.Proof.KbMain
import proofs.«169600_j28226525069938_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h
/-- An input window's array is left as found by the first kernel's pipeline, -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- and by the second kernel's. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

theorem W4_main_arg0 (c : Dev nD) : W4 m c (Proc.devRef .tc main_arg0) = m ((c : Thread nD τ).loc main_arg0) :=
  (W4_of m c main_arg0 (by decide)).trans <| (W3_of_ne m c main_arg0 (by decide)).trans <| (W2_in m c 0 rfl).trans <| (W1_of m c main_arg0 (by decide)).trans rfl
theorem W4_main_arg1 (c : Dev nD) : W4 m c (Proc.devRef .tc main_arg1) = m ((c : Thread nD τ).loc main_arg1) :=
  (W4_of m c main_arg1 (by decide)).trans <| (W3_of_ne m c main_arg1 (by decide)).trans <| (W2_in m c 5 rfl).trans <| (W1_of m c main_arg1 (by decide)).trans rfl
theorem W4_main_arg2 (c : Dev nD) : W4 m c (Proc.devRef .tc main_arg2) = m ((c : Thread nD τ).loc main_arg2) :=
  (W4_of m c main_arg2 (by decide)).trans <| (W3_in m c 1 rfl).trans <| (W2_of_ne m c main_arg2 (by decide)).trans <| (W1_of m c main_arg2 (by decide)).trans rfl
theorem W4_main_arg3 (c : Dev nD) : W4 m c (Proc.devRef .tc main_arg3) = m ((c : Thread nD τ).loc main_arg3) :=
  (W4_of m c main_arg3 (by decide)).trans <| (W3_of_ne m c main_arg3 (by decide)).trans <| (W2_in m c 1 rfl).trans <| (W1_of m c main_arg3 (by decide)).trans rfl
theorem W4_main_arg4 (c : Dev nD) : W4 m c (Proc.devRef .tc main_arg4) = m ((c : Thread nD τ).loc main_arg4) :=
  (W4_of m c main_arg4 (by decide)).trans <| (W3_of_ne m c main_arg4 (by decide)).trans <| (W2_of_ne m c main_arg4 (by decide)).trans <| (W1_of m c main_arg4 (by decide)).trans rfl
theorem W4_main_arg5 (c : Dev nD) : W4 m c (Proc.devRef .tc main_arg5) = m ((c : Thread nD τ).loc main_arg5) :=
  (W4_of m c main_arg5 (by decide)).trans <| (W3_of_ne m c main_arg5 (by decide)).trans <| (W2_in m c 3 rfl).trans <| (W1_of m c main_arg5 (by decide)).trans rfl
theorem W4_main_arg6 (c : Dev nD) : W4 m c (Proc.devRef .tc main_arg6) = m ((c : Thread nD τ).loc main_arg6) :=
  (W4_of m c main_arg6 (by decide)).trans <| (W3_of_ne m c main_arg6 (by decide)).trans <| (W2_of_ne m c main_arg6 (by decide)).trans <| (W1_of m c main_arg6 (by decide)).trans rfl

/-- The frame: every weakly fair execution terminates without a fault and each argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)) :=
  (θ_run defs _ _).mono (fun _ h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c)⟩) (run_all m ρ)

end Cert.Kernel.Hand

end
-- ==== Proof.Frames.lean ====
/-
  The three frame claims. Each kernel program's frame is its whole run (every unscoped buffer ends at the contents
  the segments leave) read at the seven argument arrays, which nothing writes; the reference has no kernel, and its
  frame is its run with the result forgotten.
-/
import proofs.«169600_j28226525069938_2_alg».proof.Defs
import proofs.«169600_j28226525069938_2_alg».proof.Proof.KiArgs
import proofs.«169600_j28226525069938_2_alg».proof.Proof.KbArgs
import proofs.«169600_j28226525069938_2_alg».proof.Proof.Gen.ReferenceIdeal.Run
import proofs.«169600_j28226525069938_2_alg».proof.Proof.Gen.ReferenceIdeal
import proofs.«169600_j28226525069938_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

end Cert.Proof.Claims

end
-- ==== Proof.KiR0Val.lean ====
/-
  What each control case of the first kernel's body leaves in the buffers it stores into, as the body's arithmetic applied to
  the contents it was run over: every load and every store of the body is of a whole buffer, so a load reads the
  contents, the last store into a buffer leaves its value, and a load after a store reads the stored value.
-/
import proofs.«169600_j28226525069938_2_alg».proof.Proof.KiR0Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 buffer, spelt as a function. -/
theorem hzero0 : (![0, 0] : Fin 2 → Nat) = fun _ => 0 := funext fun a => by fin_cases a <;> rfl

/-- A middle block: the accumulator is left at this block's step over what it held. -/
theorem sout0_B_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : ¬cond0_1 i)
    (x0 : Vec F S256x1024 .f32) (x1 : Vec F S2048x1024 .f32) (xs0 : Vec F S256x2048 .f32) :
    sout0_B c i arg1 harg1 arg2 harg2 arg3 harg3 arg4 harg4 arg5 harg5 arg6 harg6 arg7 harg7 arg8 harg8 arg9 harg9 hc0 hc1 x0 x1 xs0 = k0_pay2 x0 x1 xs0 := by
  unfold sout0_B
  rw [View.read_writes_eq_canon _ _ _ (scover0_B c i arg1 harg1 arg2 harg2 arg3 harg3 arg4 harg4 arg5 harg5 arg6 harg6 arg7 harg7 arg8 harg8 arg9 harg9 hc0 hc1 x0 x1 xs0)]
  unfold kernelRun0_B
  dsimp only
  rw [View.canon_unit_zero hzero0]
  simp only [View.readAt_eq_ld, harg1.read_unread, harg2.read_unread, harg9.read_unread,
    View.ld_unit_zero (S := S256x1024) hzero0, View.ld_unit_zero (S := S2048x1024) hzero0, View.ld_unit_zero (S := S256x2048) hzero0]

/-- The first block: the accumulator is zeroed, then left at this block's step over the zeros. -/
theorem sout0_A_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : cond0_0 i) (hc1 : ¬cond0_1 i)
    (x0 : Vec F S256x1024 .f32) (x1 : Vec F S2048x1024 .f32) :
    sout0_A c i arg1 harg1 arg2 harg2 arg3 harg3 arg4 harg4 arg5 harg5 arg6 harg6 arg7 harg7 arg8 harg8 arg9 harg9 hc0 hc1 x0 x1 = k0_pay2 x0 x1 (k0_pay1 (F := F)) := by
  unfold sout0_A
  rw [View.read_writes_eq_canon _ _ _ (scover0_A c i arg1 harg1 arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S256x2048) hzero0, View.readCov_unit_zero (S := S256x2048) _ hzero0]
  simp only [View.readAt_eq_ld, harg1.read_unread, harg2.read_unread,
    View.ld_unit_zero (S := S256x1024) hzero0, View.ld_unit_zero (S := S2048x1024) hzero0]

/-- The last block: the accumulator is left at this block's step over what it held. -/
theorem sout0_C_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    sout0_C c i arg1 harg1 arg2 harg2 arg3 harg3 arg4 harg4 arg5 harg5 arg6 harg6 arg7 harg7 arg8 harg8 arg9 harg9 hc0 hc1 x0 x1 x2 x3 x4 x5 xs0 = k0_pay2 x0 x1 xs0 := by
  unfold sout0_C
  rw [View.read_writes_eq_canon _ _ _ (scover0_C c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hzero0]
  simp only [View.readAt_eq_ld, harg1.read_unread, harg2.read_unread, harg9.read_unread,
    View.ld_unit_zero (S := S256x1024) hzero0, View.ld_unit_zero (S := S2048x1024) hzero0, View.ld_unit_zero (S := S256x2048) hzero0]

/-- The last block: the first result's buffer is left at the closing step over the accumulator as this block left it. -/
theorem out0_C_6_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    out0_C_6 c i arg1 harg1 arg2 harg2 arg3 harg3 arg4 harg4 arg5 harg5 arg6 harg6 arg7 harg7 arg8 harg8 arg9 harg9 hc0 hc1 x0 x1 x2 x3 x4 x5 xs0 = k0_pay3 (k0_pay2 x0 x1 xs0) x2 x3 x4 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hzero0, View.readCov_unit_zero (S := S256x2048) _ hzero0]
  simp only [View.readAt_eq_ld, harg1.read_unread, harg2.read_unread, harg3.read_unread, harg4.read_unread, harg5.read_unread, harg6.read_unread, harg9.read_unread,
    View.ld_unit_zero (S := S256x1024) hzero0, View.ld_unit_zero (S := S2048x1024) hzero0, View.ld_unit_zero (S := S1x2048) hzero0, View.ld_unit_zero (S := S512x2048) hzero0,
    View.ld_unit_zero (S := S1x512) hzero0, View.ld_unit_zero (S := S256x512) hzero0, View.ld_unit_zero (S := S256x2048) hzero0]

/-- The last block: the second result's buffer is left at the score step over the accumulator as this block left it. -/
theorem out0_C_7_eq (c : Dev nD) (i : grid0.Coords) (arg1 : Memref sig .tc .vmem S256x1024 .f32) (harg1 : arg1.IsWhole) (arg2 : Memref sig .tc .vmem S2048x1024 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x1 .f32) (harg8 : arg8.IsWhole) (arg9 : Memref sig .tc .vmem S256x2048 .f32) (harg9 : arg9.IsWhole) (hc0 : ¬cond0_0 i) (hc1 : cond0_1 i)
    (x0 : Vec F S256x1024 .f32) (x1 : Vec F S2048x1024 .f32) (x2 : Vec F S1x2048 .f32) (x3 : Vec F S512x2048 .f32) (x4 : Vec F S1x512 .f32) (x5 : Vec F S256x512 .f32) (xs0 : Vec F S256x2048 .f32) :
    out0_C_7 c i arg1 harg1 arg2 harg2 arg3 harg3 arg4 harg4 arg5 harg5 arg6 harg6 arg7 harg7 arg8 harg8 arg9 harg9 hc0 hc1 x0 x1 x2 x3 x4 x5 xs0 = k0_pay4 (k0_pay2 x0 x1 xs0) x2 x3 x4 x5 := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hzero0, View.readCov_unit_zero (S := S256x2048) _ hzero0]
  simp only [View.readAt_eq_ld, harg1.read_unread, harg2.read_unread, harg3.read_unread, harg4.read_unread, harg5.read_unread, harg6.read_unread, harg9.read_unread,
    View.ld_unit_zero (S := S256x1024) hzero0, View.ld_unit_zero (S := S2048x1024) hzero0, View.ld_unit_zero (S := S1x2048) hzero0, View.ld_unit_zero (S := S512x2048) hzero0,
    View.ld_unit_zero (S := S1x512) hzero0, View.ld_unit_zero (S := S256x512) hzero0, View.ld_unit_zero (S := S256x2048) hzero0]

end Cert.KernelIdeal.Hand

end
-- ==== Proof.KiBlk0.lean ====
/-
  The first kernel's input blocks, entry by entry.

  The grid has four points t = 0..3. The two streamed operands are cut along their second axis into four blocks of
  1024 columns: entry (r, k) of block t is entry (r, 1024·t + k) of the array. The other four inputs are whole-array
  windows: their block index is zero on both axes at every point, so the block is the array.
  A block's coordinate on an axis is always (block index) × (block size) + 1 × (coordinate inside the block).
-/
import proofs.«169600_j28226525069938_2_alg».proof.Proof.KiR0Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The block indices, decided once over the grid -/

/-- The grid has four points. -/
theorem lt_N0 (t : Fin cfg0.N) : t.val < 4 := lt_of_lt_of_eq t.isLt N_0

theorem idx0_0 : ∀ t : Fin cfg0.N, win0_0.index t (0 : Fin 2) = 0 ∧ win0_0.index t (1 : Fin 2) = t.val :=
  (by decide +kernel : ∀ t : Fin grid0.N, _)
theorem idx0_1 : ∀ t : Fin cfg0.N, win0_1.index t (0 : Fin 2) = 0 ∧ win0_1.index t (1 : Fin 2) = t.val :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)

variable (V : (c : Dev nD) → (b : Ref sig .tc) → Buf (Elt F) ((c : Thread nD τ).loc b))

/-! ## The streamed operands: block t is columns 1024·t .. 1024·t + 1023 -/

theorem iblk0_0 (c : Dev nD) (t : Fin cfg0.N) (p : Fin 256) (k : Fin 1024) :
    iblk0 V c 0 t (ix2 p k)
      = V c main_arg0 (ix2 p (⟨1024 * t.val + k.val, by have := lt_N0 t; have := k.isLt; omega⟩ : Fin 4096)) := by
  unfold iblk0
  show V c main_arg0 (((cfg0.win 0).blk t).view.emb (ix2 p k)) = _
  refine congrArg (V c main_arg0) (funext fun a => Fin.ext ?_)
  obtain ⟨e0, e1⟩ := idx0_0 t
  match a with
  | ⟨0, _⟩ => show win0_0.index t (0 : Fin 2) * 256 + 1 * p.val = p.val; omega
  | ⟨1, _⟩ => show win0_0.index t (1 : Fin 2) * 1024 + 1 * k.val = 1024 * t.val + k.val; omega

theorem iblk0_1 (c : Dev nD) (t : Fin cfg0.N) (h : Fin 2048) (k : Fin 1024) :
    iblk0 V c 1 t (ix2 h k)
      = V c main_arg3 (ix2 h (⟨1024 * t.val + k.val, by have := lt_N0 t; have := k.isLt; omega⟩ : Fin 4096)) := by
  unfold iblk0
  show V c main_arg3 (((cfg0.win 1).blk t).view.emb (ix2 h k)) = _
  refine congrArg (V c main_arg3) (funext fun a => Fin.ext ?_)
  obtain ⟨e0, e1⟩ := idx0_1 t
  match a with
  | ⟨0, _⟩ => show win0_1.index t (0 : Fin 2) * 2048 + 1 * h.val = h.val; omega
  | ⟨1, _⟩ => show win0_1.index t (1 : Fin 2) * 1024 + 1 * k.val = 1024 * t.val + k.val; omega

/-! ## The whole-array windows: the block is the array -/

theorem iblk0_2 (c : Dev nD) (t : Fin cfg0.N) : (iblk0 V c 2 t : S1x2048.Idx → Elt F .f32) = V c main_v0 := by
  funext y
  unfold iblk0
  show V c main_v0 (((cfg0.win 2).blk t).view.emb y) = V c main_v0 y
  refine congrArg (V c main_v0) (funext fun a => Fin.ext ?_)
  obtain ⟨e0, e1⟩ := idx0_2 t
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem iblk0_3 (c : Dev nD) (t : Fin cfg0.N) : (iblk0 V c 3 t : S512x2048.Idx → Elt F .f32) = V c main_arg5 := by
  funext y
  unfold iblk0
  show V c main_arg5 (((cfg0.win 3).blk t).view.emb y) = V c main_arg5 y
  refine congrArg (V c main_arg5) (funext fun a => Fin.ext ?_)
  obtain ⟨e0, e1⟩ := idx0_3 t
  match a with
  | ⟨0, _⟩ => show win0_3.index t (0 : Fin 2) * 512 + 1 * (y 0).val = (y 0).val; omega
  | ⟨1, _⟩ => show win0_3.index t (1 : Fin 2) * 2048 + 1 * (y 1).val = (y 1).val; omega

theorem iblk0_4 (c : Dev nD) (t : Fin cfg0.N) : (iblk0 V c 4 t : S1x512.Idx → Elt F .f32) = V c main_v1 := by
  funext y
  unfold iblk0
  show V c main_v1 (((cfg0.win 4).blk t).view.emb y) = V c main_v1 y
  refine congrArg (V c main_v1) (funext fun a => Fin.ext ?_)
  obtain ⟨e0, e1⟩ := idx0_4 t
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem iblk0_5 (c : Dev nD) (t : Fin cfg0.N) : (iblk0 V c 5 t : S256x512.Idx → Elt F .f32) = V c main_arg1 := by
  funext y
  unfold iblk0
  show V c main_arg1 (((cfg0.win 5).blk t).view.emb y) = V c main_arg1 y
  refine congrArg (V c main_arg1) (funext fun a => Fin.ext ?_)
  obtain ⟨e0, e1⟩ := idx0_5 t
  match a with
  | ⟨0, _⟩ => show win0_5.index t (0 : Fin 2) * 256 + 1 * (y 0).val = (y 0).val; omega
  | ⟨1, _⟩ => show win0_5.index t (1 : Fin 2) * 512 + 1 * (y 1).val = (y 1).val; omega

end Cert.KernelIdeal.Hand

end
-- ==== Proof.Spec.lean ====
/-
  The result as one function of the seven argument arrays, entry by entry, over the extended reals.

  With x = vfs (256 × 4096), Wh = W_hidden (2048 × 4096), bh = b_hidden, We = W_embed (512 × 2048), be = b_embed,
  P = p_lfs (256 × 512), Nl = n_lfs (512 × 512):
    hidden p h = (Σ_k x[p,k] · Wh[h,k]) + bh[h]
    emb p e    = (Σ_h hidden p h · We[e,h]) + be[e]
    column 0 of row p     : 0 − √ Σ_e (max (P[p,e] − emb p e) 0)²
    column n+1 of row p   : 0 − √ Σ_e (max (Nl[n,e] − emb p e) 0)²
  Sums over a whole contracted axis, in the commutative monoid of the extended reals: how a program groups
  or orders such a sum does not change it.
-/
import Idealize.ShloMosaic.PureOps.Ideal
import Idealize.ShloMosaic.Lib.ValueIdx

noncomputable section

namespace Cert.Spec

open Idealize.ShloMosaic Idealize.ShloMosaic.ValueIdx

/-- The square of the positive part. -/
def posSq (x : EReal) : EReal := max x 0 * max x 0

/-- Minus the square root, written as the difference from zero. -/
def negRoot (x : EReal) : EReal := 0 - Ideal.sqrt x

variable (x : (⟨2, ![256, 4096]⟩ : Shape).Idx → EReal) (P : (⟨2, ![256, 512]⟩ : Shape).Idx → EReal)
  (Nl : (⟨2, ![512, 512]⟩ : Shape).Idx → EReal) (Wh : (⟨2, ![2048, 4096]⟩ : Shape).Idx → EReal)
  (bh : (⟨1, ![2048]⟩ : Shape).Idx → EReal) (We : (⟨2, ![512, 2048]⟩ : Shape).Idx → EReal)
  (be : (⟨1, ![512]⟩ : Shape).Idx → EReal)

/-- The hidden layer: row p of x against row h of Wh, plus the bias. -/
def hidden (p : Fin 256) (h : Fin 2048) : EReal := (∑ k : Fin 4096, x (ix2 p k) * Wh (ix2 h k)) + bh (ix1 h)

/-- The embedding: row p of the hidden layer against row e of We, plus the bias. -/
def emb (p : Fin 256) (e : Fin 512) : EReal := (∑ h : Fin 2048, hidden x Wh bh p h * We (ix2 e h)) + be (ix1 e)

/-- The score of row p against its own positive row of P. -/
def pscore (p : Fin 256) : EReal := negRoot (∑ e : Fin 512, posSq (P (ix2 p e) - emb x Wh bh We be p e))

/-- The score of row p against row n of Nl. -/
def nscore (p : Fin 256) (n : Fin 512) : EReal := negRoot (∑ e : Fin 512, posSq (Nl (ix2 n e) - emb x Wh bh We be p e))

/-- The whole result, 256 × 513: column 0 the positive score, column n + 1 the score against row n of Nl. -/
def result : (⟨2, ![256, 513]⟩ : Shape).Idx → EReal := fun j =>
  if h : (j 1).val = 0 then pscore x P Wh bh We be (j 0)
  else nscore x Nl Wh bh We be (j 0) ⟨(j 1).val - 1, by have := (j 1).isLt; simp only [Matrix.cons_val_one, Matrix.cons_val_zero] at this; omega⟩

end Cert.Spec

end
-- ==== Proof.PayK0a.lean ====
import proofs.«169600_j28226525069938_2_alg».proof.Proof.Gen.KernelIdeal.Skeleton
import proofs.«169600_j28226525069938_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

theorem dotA_lhs0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem dotA_lhs1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem dotA_rhs0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem dotA_rhs1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- With a zero accumulator, entry (p, h) of the product of a 256 × 1024 operand and a 1024 × 2048 operand is the sum over
    the shared axis of the entries' products. -/
theorem dotA_apply {φ₁ φ₂ : FTy} (L : FVec Ideal S256x1024 φ₁) (R : FVec Ideal S1024x2048 φ₂) (p : Fin 256) (h : Fin 2048) :
    FloatOps.matmul dot_S256x1024_S1024x2048_S256x2048_1_0_0_1_n_n none L R (constant (F := Ideal) S256x2048 .f32 0x00000000#32) (ix2 p h)
      = ∑ k : Fin 1024, L (ix2 p k) * R (ix2 k h) := by
  rw [Ideal.matmul_constant_zero_apply,
    ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p h) ((contrEquiv1 dot_S256x1024_S1024x2048_S256x2048_1_0_0_1_n_n 1024 rfl rfl).symm k) = ix2 p k :=
    funext fun a => Fin.ext (by
      match a with
      | ⟨0, _⟩ => exact dotA_lhs0 _ _
      | ⟨1, _⟩ => exact (dotA_lhs1 _ _).trans hk)
  have er : dot_S256x1024_S1024x2048_S256x2048_1_0_0_1_n_n.rhsIdx (ix2 p h) ((contrEquiv1 dot_S256x1024_S1024x2048_S256x2048_1_0_0_1_n_n 1024 rfl rfl).symm k) = ix2 k h :=
    funext fun a => Fin.ext (by
      match a with
      | ⟨0, _⟩ => exact (dotA_rhs0 _ _).trans hk
      | ⟨1, _⟩ => exact dotA_rhs1 _ _)
  rw [el, er]

/-- The first kernel's accumulation step at entry (p, h): the running value plus row p of the first operand against
    row h of the second (the second is transposed before the product; the format changes are the identity). -/
theorem pay2_0 (v3 : Vec Ideal S256x1024 .f32) (v5 : Vec Ideal S2048x1024 .f32) (v7 : Vec Ideal S256x2048 .f32) (p : Fin 256) (h : Fin 2048) :
    k0_pay2 (F := Ideal) v3 v5 v7 (ix2 p h) = v7 (ix2 p h) + ∑ k : Fin 1024, v3 (ix2 p k) * v5 (ix2 h k) := by
  unfold k0_pay2
  rw [shapeCast_self]
  refine congrArg (v7 (ix2 p h) + ·) ?_
  refine (dotA_apply _ _ p h).trans ?_
  refine Finset.sum_congr rfl fun k _ => ?_
  refine congrArg (v3 (ix2 p k) * ·) ?_
  exact transpose_apply [1, 0] _ transposes_S2048x1024_p1_0_S1024x2048 (ix2 k h) (ix2 h k) (fun b => match b with
    | ⟨0, _⟩ => rfl
    | ⟨1, _⟩ => rfl)

end Cert.KernelIdeal.Pay

end
-- ==== Proof.PayK0b.lean ====
import proofs.«169600_j28226525069938_2_alg».proof.Proof.Gen.KernelIdeal.Skeleton
import proofs.«169600_j28226525069938_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The first kernel's initial value of its running sum: zero at every entry. -/
theorem pay1_0 (j : S256x2048.Idx) : k0_pay1 (F := Ideal) j = 0 := by
  unfold k0_pay1
  rw [shapeCast_self]
  exact Ideal.ofBits_zero_f32

theorem dotB_lhs0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem dotB_lhs1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem dotB_rhs0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem dotB_rhs1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- With a zero accumulator, entry (p, h) of the product of a 256 × 2048 operand and a 2048 × 512 operand is the sum over
    the shared axis of the entries' products. -/
theorem dotB_apply {φ₁ φ₂ : FTy} (L : FVec Ideal S256x2048 φ₁) (R : FVec Ideal S2048x512 φ₂) (p : Fin 256) (h : Fin 512) :
    FloatOps.matmul dot_S256x2048_S2048x512_S256x512_1_0_0_1_n_n none L R (constant (F := Ideal) S256x512 .f32 0x00000000#32) (ix2 p h)
      = ∑ k : Fin 2048, L (ix2 p k) * R (ix2 k h) := by
  rw [Ideal.matmul_constant_zero_apply,
    ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 p h) ((contrEquiv1 dot_S256x2048_S2048x512_S256x512_1_0_0_1_n_n 2048 rfl rfl).symm k) = ix2 p k :=
    funext fun a => Fin.ext (by
      match a with
      | ⟨0, _⟩ => exact dotB_lhs0 _ _
      | ⟨1, _⟩ => exact (dotB_lhs1 _ _).trans hk)
  have er : dot_S256x2048_S2048x512_S256x512_1_0_0_1_n_n.rhsIdx (ix2 p h) ((contrEquiv1 dot_S256x2048_S2048x512_S256x512_1_0_0_1_n_n 2048 rfl rfl).symm k) = ix2 k h :=
    funext fun a => Fin.ext (by
      match a with
      | ⟨0, _⟩ => exact (dotB_rhs0 _ _).trans hk
      | ⟨1, _⟩ => exact dotB_rhs1 _ _)
  rw [el, er]

/-- The first kernel's closing step at entry (p, e): the finished running sum plus its row of biases, row p of it against
    row e of the second weight (transposed before the product), plus that layer's bias. -/
theorem pay3_0 (v17 : Vec Ideal S256x2048 .f32) (v18 : Vec Ideal S1x2048 .f32) (v23 : Vec Ideal S512x2048 .f32) (v27 : Vec Ideal S1x512 .f32) (p : Fin 256) (e : Fin 512) :
    k0_pay3 (F := Ideal) v17 v18 v23 v27 (ix2 p e) = (∑ h : Fin 2048, (v17 (ix2 p h) + v18 (ix2 0 h)) * v23 (ix2 e h)) + v27 (ix2 0 e) := by
  unfold k0_pay3
  rw [shapeCast_self, shapeCast_self]
  refine congrArg₂ (· + ·) ?_ (broadcastTo_1b_ab_apply v27 broadcasts_S1x512_S256x512 p e)
  refine (dotB_apply _ _ p e).trans ?_
  refine Finset.sum_congr rfl fun h _ => ?_
  refine congrArg₂ (· * ·) ?_ (transpose_ix2_apply _ transposes_S512x2048_p1_0_S2048x512 h e)
  exact congrArg (v17 (ix2 p h) + ·) (broadcastTo_1b_ab_apply v18 broadcasts_S1x2048_S256x2048 p h)

end Cert.KernelIdeal.Pay

end
-- ==== Proof.PayK0c.lean ====
import proofs.«169600_j28226525069938_2_alg».proof.Proof.Gen.KernelIdeal.Skeleton
import proofs.«169600_j28226525069938_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A sum of an f32 vector over one axis, started from the zero word, read at an index: the sum over that axis's
    coordinates. -/
theorem laneSum {s t : Shape} {a : Fin s.rank} (src : FVec Ideal s .f32) (h : s.Reduces [a] t) (hφ : FKind.Formats .f32)
    (hacc : (0x00000000#32 : BitVec 32) = FKind.add.neutral .f32 hφ) (j : t.Idx) :
    multiReduction (F := Ideal) .add [a] t src 0x00000000#32 h hφ hacc j = ∑ k : Fin (s.size a), src (h.lift j k) :=
  Ideal.multiReduction_add_single src _ h hφ hacc j

/-- The first kernel's score of row p: zero minus the root of the sum, over the embedding's coordinates, of the squared
    positive part of the target's entry minus the embedding's. -/
theorem pay4_0 (v17 : Vec Ideal S256x2048 .f32) (v18 : Vec Ideal S1x2048 .f32) (v23 : Vec Ideal S512x2048 .f32) (v27 : Vec Ideal S1x512 .f32)
    (v32 : Vec Ideal S256x512 .f32) (p : Fin 256) :
    k0_pay4 (F := Ideal) v17 v18 v23 v27 v32 (ix2 p 0)
      = Cert.Spec.negRoot (∑ e : Fin 512, Cert.Spec.posSq (v32 (ix2 p e) - k0_pay3 (F := Ideal) v17 v18 v23 v27 (ix2 p e))) := by
  unfold k0_pay4 Cert.Spec.negRoot
  generalize k0_pay3 (F := Ideal) v17 v18 v23 v27 = y
  refine congrArg₂ (· - ·) Ideal.ofBits_zero_f32 (congrArg Ideal.sqrt ?_)
  refine (shapeCast_a_a1_apply _ shapeCasts_S256_S256x1 p 0).trans ?_
  refine (laneSum _ reduces_S256x512_S256 (.inl rfl) rfl (ix1 p)).trans ?_
  refine Finset.sum_congr rfl fun (e : Fin 512) _ => ?_
  have hl : reduces_S256x512_S256.lift (ix1 p) e = ix2 p e :=
    funext fun a => Fin.ext (by match a with | ⟨0, _⟩ => rfl | ⟨1, _⟩ => rfl)
  rw [hl]
  unfold Cert.Spec.posSq
  show max (v32 (ix2 p e) - y (ix2 p e)) (Ideal.ofBits .f32 0x00000000#32) * max (v32 (ix2 p e) - y (ix2 p e)) (Ideal.ofBits .f32 0x00000000#32)
    = max (v32 (ix2 p e) - y (ix2 p e)) 0 * max (v32 (ix2 p e) - y (ix2 p e)) 0
  rw [Ideal.ofBits_zero_f32]

end Cert.KernelIdeal.Pay

end
-- ==== Proof.LibBlockSum.lean ====
/-
  Sums over a merged contraction axis.

  A contraction over `n * d` consecutive indices, that is `n` blocks of length `d` laid side by side, is the
  sum, block by block, of the `n` contractions over `d`.  Blocks whose terms all vanish may be left out.  A
  left-to-right accumulation from a starting value is that value plus the sum of what was added.  All of it is
  stated over an arbitrary commutative additive monoid: only commutativity and associativity of `+` are used,
  never cancellation or distributivity, so every statement holds on the extended reals as it stands, with no
  finiteness hypothesis.
-/
import Mathlib.Algebra.BigOperators.Fin
import Mathlib.Data.Fintype.BigOperators
import Mathlib.Logic.Equiv.Fin.Basic

namespace Cert.BlockSum

open Finset

variable {M : Type*} [AddCommMonoid M]

/-- Entry `c` of block `t` on the merged axis sits at position `c + d * t`. -/
def merged {n d : ℕ} (t : Fin n) (c : Fin d) : Fin (n * d) := finProdFinEquiv (t, c)

@[simp] theorem merged_val {n d : ℕ} (t : Fin n) (c : Fin d) : ((merged t c : Fin (n * d)) : ℕ) = c.val + d * t.val := rfl

/-- The block a merged position lies in. -/
theorem merged_div {n d : ℕ} (t : Fin n) (c : Fin d) : ((merged t c : Fin (n * d)) : ℕ) / d = t.val := by
  have hd : 0 < d := Nat.pos_of_ne_zero fun h => by subst h; exact c.elim0
  rw [merged_val, Nat.add_mul_div_left _ _ hd, Nat.div_eq_of_lt c.isLt, Nat.zero_add]

/-- The place of a merged position inside its block. -/
theorem merged_mod {n d : ℕ} (t : Fin n) (c : Fin d) : ((merged t c : Fin (n * d)) : ℕ) % d = c.val := by
  rw [merged_val, Nat.add_mul_mod_self_left, Nat.mod_eq_of_lt c.isLt]

/-- A sum over the merged axis is the sum over the blocks of the sums inside each block. -/
theorem sum_merged {n d : ℕ} (f : Fin (n * d) → M) :
    ∑ k, f k = ∑ t : Fin n, ∑ c : Fin d, f (merged t c) := by
  rw [← Equiv.sum_comp finProdFinEquiv f, Fintype.sum_prod_type]
  rfl

/-- The same when the merged term is known block by block. -/
theorem sum_merged_of {n d : ℕ} (f : Fin (n * d) → M) (g : Fin n → Fin d → M)
    (h : ∀ t c, f (merged t c) = g t c) : ∑ k, f k = ∑ t, ∑ c, g t c := by
  rw [sum_merged]
  exact Finset.sum_congr rfl fun t _ => Finset.sum_congr rfl fun c _ => h t c

/-- Terms that vanish outside `p` may be left out of a sum. -/
theorem sum_drop_zero {ι : Type*} [Fintype ι] (F : ι → M) (p : ι → Prop) [DecidablePred p]
    (h : ∀ t, ¬ p t → F t = 0) : ∑ t, F t = ∑ t ∈ univ.filter p, F t := by
  rw [Finset.sum_filter]
  refine Finset.sum_congr rfl fun t _ => ?_
  split_ifs with hp
  · rfl
  · exact h t hp

/-- Adding the entries of a list one after the other onto `z` gives `z` plus their sum. -/
theorem foldl_add_list (l : List M) (z : M) : l.foldl (· + ·) z = z + l.sum := by
  induction l generalizing z with
  | nil => simp
  | cons a l ih => rw [List.foldl_cons, ih, List.sum_cons, add_assoc]

/-- Accumulating `a 0, a 1, …` in order onto `z` gives `z` plus the sum of the `a t`. -/
theorem foldl_add_ofFn {n : ℕ} (a : Fin n → M) (z : M) : (List.ofFn a).foldl (· + ·) z = z + ∑ t, a t := by
  rw [foldl_add_list, List.sum_ofFn]

/-- Nine contributions added one after the other onto zero. -/
theorem acc_nine (a : Fin 9 → M) :
    0 + a 0 + a 1 + a 2 + a 3 + a 4 + a 5 + a 6 + a 7 + a 8 = ∑ t, a t := by
  simp only [Fin.sum_univ_succ, Fin.sum_univ_zero, zero_add, add_zero]
  simp only [add_assoc]
  rfl

/-- Four contributions added one after the other onto zero. -/
theorem acc_four (a : Fin 4 → M) : 0 + a 0 + a 1 + a 2 + a 3 = ∑ t, a t := by
  simp only [Fin.sum_univ_succ, Fin.sum_univ_zero, zero_add, add_zero]
  simp only [add_assoc]
  rfl

end Cert.BlockSum
-- ==== Proof.KiVal0.lean ====
/-
  The first kernel's results at the exact values, entry by entry, as functions of the contents V the region is
  entered with.

  The accumulator after the last point is the sum of the four blocks' products, that is the whole contraction
  over the 4096 coordinates (a sum over four blocks of 1024 is the sum over the merged axis). The first result is
  then the second layer (the embedding) and the second result the positive score, as the specification writes them,
  with the two bias rows read off the 1 × n arrays the host reshapes made.
-/
import proofs.«169600_j28226525069938_2_alg».proof.Proof.KiR0Val
import proofs.«169600_j28226525069938_2_alg».proof.Proof.KiBlk0
import proofs.«169600_j28226525069938_2_alg».proof.Proof.PayK0a
import proofs.«169600_j28226525069938_2_alg».proof.Proof.PayK0b
import proofs.«169600_j28226525069938_2_alg».proof.Proof.PayK0c
import proofs.«169600_j28226525069938_2_alg».proof.Proof.Spec
import proofs.«169600_j28226525069938_2_alg».proof.Proof.LibBlockSum

set_option maxRecDepth 16384

noncomputable section

namespace Cert.KernelIdeal.HandV

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Cert.BlockSum

variable (V : (c : Dev nD) → (b : Ref sig .tc) → Buf (Elt Ideal) ((c : Thread nD τ).loc b)) (c : Dev nD)

/-- The arrays as the region finds them, typed as arrays of extended reals. -/
abbrev aX : Vec Ideal S256x4096 .f32 := V c main_arg0
abbrev aW : Vec Ideal S2048x4096 .f32 := V c main_arg3
abbrev aP : Vec Ideal S256x512 .f32 := V c main_arg1
abbrev aWe : Vec Ideal S512x2048 .f32 := V c main_arg5
abbrev aB0 : Vec Ideal S1x2048 .f32 := V c main_v0
abbrev aB1 : Vec Ideal S1x512 .f32 := V c main_v1

/-- The two streamed input blocks at a point, typed as arrays of extended reals. -/
abbrev bX (t : Fin cfg0.N) : Vec Ideal S256x1024 .f32 := iblk0 V c 0 t
abbrev bW (t : Fin cfg0.N) : Vec Ideal S2048x1024 .f32 := iblk0 V c 1 t

/-- The product of block j (of 1024 coordinates) of row p of the first argument with block j of row h of the weight. -/
def blockDot (j : Fin 4) (p : Fin 256) (h : Fin 2048) : EReal :=
  ∑ k : Fin 1024, aX V c (ix2 p (merged j k : Fin 4096)) * aW V c (ix2 h (merged j k : Fin 4096))

/-- What a point's two input blocks contribute: the block product of the point's own block. -/
theorem blocks_dot (t : Fin cfg0.N) (p : Fin 256) (h : Fin 2048) :
    ∑ k : Fin 1024, bX V c t (ix2 p k) * bW V c t (ix2 h k)
      = blockDot V c ⟨t.val, lt_N0 t⟩ p h := by
  unfold blockDot
  refine Finset.sum_congr rfl fun k _ => ?_
  have key : ∀ a b : Fin 4096, a = b → aX V c (ix2 p a) * aW V c (ix2 h a) = aX V c (ix2 p b) * aW V c (ix2 h b) := by
    rintro a b rfl; rfl
  refine Eq.trans ?_ (key ⟨1024 * t.val + k.val, by have := lt_N0 t; omega⟩ _ (Fin.ext (by show 1024 * t.val + k.val = k.val + 1024 * t.val; omega)))
  exact congrArg₂ (· * ·) (iblk0_0 V c t p k) (iblk0_1 V c t h k)

/-- After any point but the first, the accumulator is what the point before left plus the point's block product. -/
theorem acc0_step (t : Fin cfg0.N) (h0 : ¬t.val = 0) (p : Fin 256) (h : Fin 2048) :
    acc0 V c t.val t.isLt (ix2 p h)
      = acc0 V c (t.val - 1) (Nat.lt_of_le_of_lt (Nat.sub_le _ _) t.isLt) (ix2 p h) + blockDot V c ⟨t.val, lt_N0 t⟩ p h := by
  by_cases h3 : t.val = 3
  · refine ((congrFun ((acc0_C V c t h0 h3).trans (sout0_C_eq ..)) (ix2 p h)).trans (pay2_0 _ _ _ p h)).trans ?_
    exact congrArg (_ + ·) (blocks_dot V c t p h)
  · refine ((congrFun ((acc0_B V c t h0 h3).trans (sout0_B_eq ..)) (ix2 p h)).trans (pay2_0 _ _ _ p h)).trans ?_
    exact congrArg (_ + ·) (blocks_dot V c t p h)

/-- After the first point it is zero plus the first block product. -/
theorem acc0_base (t : Fin cfg0.N) (h0 : t.val = 0) (p : Fin 256) (h : Fin 2048) :
    acc0 V c t.val t.isLt (ix2 p h) = 0 + blockDot V c ⟨t.val, lt_N0 t⟩ p h := by
  refine ((congrFun ((acc0_A V c t h0 (by omega)).trans (sout0_A_eq ..)) (ix2 p h)).trans (pay2_0 _ _ _ p h)).trans ?_
  exact congrArg₂ (· + ·) (pay1_0 _) (blocks_dot V c t p h)

/-- After the last point the accumulator holds the whole contraction. -/
theorem acc0_total (t : Fin cfg0.N) (h3 : t.val = 3) (p : Fin 256) (h : Fin 2048) :
    acc0 V c t.val t.isLt (ix2 p h) = ∑ k : Fin 4096, aX V c (ix2 p k) * aW V c (ix2 h k) := by
  have hN := lt_N0 t
  have h0 : ¬t.val = 0 := by omega
  let t2 : Fin cfg0.N := ⟨t.val - 1, Nat.lt_of_le_of_lt (Nat.sub_le _ _) t.isLt⟩
  let t1 : Fin cfg0.N := ⟨t.val - 1 - 1, Nat.lt_of_le_of_lt (Nat.sub_le _ _) t2.isLt⟩
  let t0 : Fin cfg0.N := ⟨t.val - 1 - 1 - 1, Nat.lt_of_le_of_lt (Nat.sub_le _ _) t1.isLt⟩
  have e3 := acc0_step V c t h0 p h
  have e2 := acc0_step V c t2 (by show ¬(t.val - 1 = 0); omega) p h
  have e1 := acc0_step V c t1 (by show ¬(t.val - 1 - 1 = 0); omega) p h
  have e0 := acc0_base V c t0 (by show t.val - 1 - 1 - 1 = 0; omega) p h
  have f3 : (⟨t.val, lt_N0 t⟩ : Fin 4) = 3 := Fin.ext (by show t.val = 3; exact h3)
  have f2 : (⟨t2.val, lt_N0 t2⟩ : Fin 4) = 2 := Fin.ext (by show t.val - 1 = 2; omega)
  have f1 : (⟨t1.val, lt_N0 t1⟩ : Fin 4) = 1 := Fin.ext (by show t.val - 1 - 1 = 1; omega)
  have f0 : (⟨t0.val, lt_N0 t0⟩ : Fin 4) = 0 := Fin.ext (by show t.val - 1 - 1 - 1 = 0; omega)
  rw [f3] at e3; rw [f2] at e2; rw [f1] at e1; rw [f0] at e0
  refine e3.trans ?_
  refine (congrArg (· + blockDot V c 3 p h) (e2.trans (congrArg (· + blockDot V c 2 p h) (e1.trans (congrArg (· + blockDot V c 1 p h) e0))))).trans ?_
  refine (acc_four (fun j => blockDot V c j p h)).trans ?_
  unfold blockDot
  exact (sum_merged (n := 4) (d := 1024) (fun k : Fin 4096 => aX V c (ix2 p k) * aW V c (ix2 h k))).symm

/-- The bias row of the hidden layer, as a vector: row 0 of the 1 × 2048 array the host's reshape made. -/
def bhOf : Vec Ideal S2048 .f32 := fun i => aB0 V c (ix2 (0 : Fin 1) (i 0))
/-- The bias row of the embedding, likewise. -/
def beOf : Vec Ideal S512 .f32 := fun i => aB1 V c (ix2 (0 : Fin 1) (i 0))

/-- The first result at the last point is the embedding. -/
theorem val0_6 (t : Fin cfg0.N) (h3 : t.val = 3) (p : Fin 256) (e : Fin 512) :
    res0_6 V c t (ix2 p e) = Cert.Spec.emb (aX V c) (aW V c) (bhOf V c) (aWe V c) (beOf V c) p e := by
  have h0 : ¬t.val = 0 := by omega
  have hs := (acc0_C V c t h0 h3).trans (sout0_C_eq ..)
  unfold res0_6
  rw [dif_pos h3]
  refine ((congrFun (out0_C_6_eq ..) (ix2 p e)).trans (pay3_0 _ _ _ _ p e)).trans ?_
  rw [← hs]
  unfold Cert.Spec.emb Cert.Spec.hidden bhOf beOf
  refine congrArg₂ (· + ·) (Finset.sum_congr rfl fun h _ => ?_) (congrFun (iblk0_4 V c t) _)
  refine congrArg₂ (· * ·) (congrArg₂ (· + ·) (acc0_total V c t h3 p h) (congrFun (iblk0_2 V c t) _)) (congrFun (iblk0_3 V c t) _)

/-- The second result at the last point is the positive score. -/
theorem val0_7 (t : Fin cfg0.N) (h3 : t.val = 3) (p : Fin 256) :
    res0_7 V c t (ix2 p (0 : Fin 1)) = Cert.Spec.pscore (aX V c) (aP V c) (aW V c) (bhOf V c) (aWe V c) (beOf V c) p := by
  have h6 := fun e => val0_6 V c t h3 p e
  unfold res0_6 at h6
  simp only [dif_pos h3] at h6
  unfold res0_7
  rw [dif_pos h3]
  refine ((congrFun (out0_C_7_eq ..) (ix2 p (0 : Fin 1))).trans (pay4_0 _ _ _ _ _ p)).trans ?_
  unfold Cert.Spec.pscore
  refine congrArg Cert.Spec.negRoot (Finset.sum_congr rfl fun e _ => ?_)
  refine congrArg Cert.Spec.posSq (congrArg₂ (· - ·) (congrFun (iblk0_5 V c t) _) ?_)
  exact (congrFun (out0_C_6_eq ..) (ix2 p e)).symm.trans (h6 e)

end Cert.KernelIdeal.HandV

end
-- ==== Proof.KiR1Val.lean ====
/-
  What each control case of the second kernel's body leaves in the buffers it stores into, as the body's arithmetic applied to
  the contents it was run over: every load and every store of the body is of a whole buffer, so a load reads the
  contents, the last store into a buffer leaves its value, and a load after a store reads the stored value.
-/
import proofs.«169600_j28226525069938_2_alg».proof.Proof.KiR1Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 buffer, spelt as a function. -/
theorem hzero1 : (![0, 0] : Fin 2 → Nat) = fun _ => 0 := funext fun a => by fin_cases a <;> rfl

/-- A middle block of the summed axis: the accumulator is left at this block's step over what it held. -/
theorem sout1_B_eq (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : ¬cond1_1 i)
    (x0 : Vec F S64x128 .f32) (x1 : Vec F S128x128 .f32) (xs0 : Vec F S64x128 .f32) :
    sout1_B c i arg3 harg3 arg4 harg4 arg5 harg5 arg6 harg6 hc0 hc1 x0 x1 xs0 = k1_pay2 x0 x1 xs0 := by
  unfold sout1_B
  rw [View.read_writes_eq_canon _ _ _ (scover1_B c i arg3 harg3 arg4 harg4 arg5 harg5 arg6 harg6 hc0 hc1 x0 x1 xs0)]
  unfold kernelRun1_B
  dsimp only
  sl_unfold_words
  rw [View.canon_unit_zero hzero1]
  simp only [View.readAt_eq_ld, harg3.read_unread, harg4.read_unread, harg6.read_unread,
    View.ld_unit_zero (S := S64x128) hzero1, View.ld_unit_zero (S := S128x128) hzero1]

/-- A first block of the summed axis: the accumulator is zeroed, then left at this block's step over the zeros. -/
theorem sout1_A_eq (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : cond1_0 i) (hc1 : ¬cond1_1 i)
    (x0 : Vec F S64x128 .f32) (x1 : Vec F S128x128 .f32) :
    sout1_A c i arg3 harg3 arg4 harg4 arg5 harg5 arg6 harg6 hc0 hc1 x0 x1 = k1_pay2 x0 x1 (k1_pay1 (F := F)) := by
  unfold sout1_A
  rw [View.read_writes_eq_canon _ _ _ (scover1_A c i arg3 harg3 arg4 harg4 arg5 harg5 arg6 harg6 hc0 hc1 x0 x1)]
  unfold kernelRun1_A
  dsimp only
  sl_unfold_words
  rw [View.canon_cons_unit_zero (S := S64x128) hzero1, View.readCov_unit_zero (S := S64x128) _ hzero1]
  simp only [View.readAt_eq_ld, harg3.read_unread, harg4.read_unread, harg6.read_unread,
    View.ld_unit_zero (S := S64x128) hzero1, View.ld_unit_zero (S := S128x128) hzero1]

/-- A last block of the summed axis: the accumulator is left at this block's step over what it held. -/
theorem sout1_C_eq (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) :
    sout1_C c i arg3 harg3 arg4 harg4 arg5 harg5 arg6 harg6 hc0 hc1 x0 x1 xs0 = k1_pay2 x0 x1 xs0 := by
  unfold sout1_C
  rw [View.read_writes_eq_canon _ _ _ (scover1_C c i arg3 harg3 arg4 harg4 arg5 harg5 arg6 harg6 hc0 hc1 x0 x1 xs0)]
  unfold kernelRun1_C
  dsimp only
  sl_unfold_words
  rw [View.canon_unit_zero hzero1]
  simp only [View.readAt_eq_ld, harg3.read_unread, harg4.read_unread, harg6.read_unread,
    View.ld_unit_zero (S := S64x128) hzero1, View.ld_unit_zero (S := S128x128) hzero1]

/-- A last block of the summed axis: the result tile's buffer is left at the score step over the accumulator as this
    block left it. -/
theorem out1_C_2_eq (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S64x128 .f32) (harg5 : arg5.IsWhole) (arg6 : Memref sig .tc .vmem S64x128 .f32) (harg6 : arg6.IsWhole) (hc0 : ¬cond1_0 i) (hc1 : cond1_1 i)
    (x0 : Vec F S64x128 .f32) (x1 : Vec F S128x128 .f32) (xs0 : Vec F S64x128 .f32) :
    out1_C_2 c i arg3 harg3 arg4 harg4 arg5 harg5 arg6 harg6 hc0 hc1 x0 x1 xs0 = k1_pay3 (k1_pay2 x0 x1 xs0) := by
  unfold out1_C_2
  rw [View.read_writes_eq_canon _ _ _ (cover1_C_2 c i arg3 harg3 arg4 harg4 arg5 harg5 arg6 harg6 hc0 hc1 x0 x1 xs0)]
  unfold kernelRun1_C
  dsimp only
  sl_unfold_words
  rw [View.canon_unit_zero hzero1, View.readCov_unit_zero (S := S64x128) _ hzero1]
  simp only [View.readAt_eq_ld, harg3.read_unread, harg4.read_unread, harg6.read_unread,
    View.ld_unit_zero (S := S64x128) hzero1, View.ld_unit_zero (S := S128x128) hzero1]

end Cert.KernelIdeal.Hand

end
-- ==== Proof.KiBlk1.lean ====
/-
  The second kernel's input blocks, entry by entry.

  The grid has 4 × 4 × 4 points, the last coordinate fastest: point t has coordinates (t / 16, t / 4 mod 4, t mod 4).
  The first input is cut into tiles of 64 rows by 128 columns, indexed by the first and the last coordinate; the
  second into tiles of 128 rows by 128 columns, indexed by the middle and the last coordinate.
  A block's coordinate on an axis is always (block index) × (block size) + 1 × (coordinate inside the block).
-/
import proofs.«169600_j28226525069938_2_alg».proof.Proof.KiR1Runs
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The block indices, decided once over the grid -/

/-- The grid has sixty-four points. -/
theorem lt_N1 (t : Fin cfg1.N) : t.val < 64 := lt_of_lt_of_eq t.isLt N_1

theorem idx1_0 : ∀ t : Fin cfg1.N, win1_0.index t (0 : Fin 2) = t.val / 16 ∧ win1_0.index t (1 : Fin 2) = t.val % 4 :=
  (by decide +kernel : ∀ t : Fin grid1.N, _)
theorem idx1_1 : ∀ t : Fin cfg1.N, win1_1.index t (0 : Fin 2) = t.val / 4 % 4 ∧ win1_1.index t (1 : Fin 2) = t.val % 4 :=
  (by decide +kernel : ∀ t : Fin grid1.N, _)

variable (V : (c : Dev nD) → (b : Ref sig .tc) → Buf (Elt F) ((c : Thread nD τ).loc b))

/-! ## The two tiled inputs -/

theorem iblk1_0 (c : Dev nD) (t : Fin cfg1.N) (r : Fin 64) (k : Fin 128) :
    iblk1 V c 0 t (ix2 r k)
      = V c main_v2_0 (ix2 (⟨64 * (t.val / 16) + r.val, by have := lt_N1 t; have := r.isLt; omega⟩ : Fin 256)
          (⟨128 * (t.val % 4) + k.val, by have := k.isLt; omega⟩ : Fin 512)) := by
  unfold iblk1
  show V c main_v2_0 (((cfg1.win 0).blk t).view.emb (ix2 r k)) = _
  refine congrArg (V c main_v2_0) (funext fun a => Fin.ext ?_)
  obtain ⟨e0, e1⟩ := idx1_0 t
  match a with
  | ⟨0, _⟩ => show win1_0.index t (0 : Fin 2) * 64 + 1 * r.val = 64 * (t.val / 16) + r.val; omega
  | ⟨1, _⟩ => show win1_0.index t (1 : Fin 2) * 128 + 1 * k.val = 128 * (t.val % 4) + k.val; omega

theorem iblk1_1 (c : Dev nD) (t : Fin cfg1.N) (r : Fin 128) (k : Fin 128) :
    iblk1 V c 1 t (ix2 r k)
      = V c main_arg2 (ix2 (⟨128 * (t.val / 4 % 4) + r.val, by have := r.isLt; omega⟩ : Fin 512)
          (⟨128 * (t.val % 4) + k.val, by have := k.isLt; omega⟩ : Fin 512)) := by
  unfold iblk1
  show V c main_arg2 (((cfg1.win 1).blk t).view.emb (ix2 r k)) = _
  refine congrArg (V c main_arg2) (funext fun a => Fin.ext ?_)
  obtain ⟨e0, e1⟩ := idx1_1 t
  match a with
  | ⟨0, _⟩ => show win1_1.index t (0 : Fin 2) * 128 + 1 * r.val = 128 * (t.val / 4 % 4) + r.val; omega
  | ⟨1, _⟩ => show win1_1.index t (1 : Fin 2) * 128 + 1 * k.val = 128 * (t.val % 4) + k.val; omega

end Cert.KernelIdeal.Hand

end
-- ==== Proof.PayK1.lean ====
import proofs.«169600_j28226525069938_2_alg».proof.Proof.Gen.KernelIdeal.Skeleton
import proofs.«169600_j28226525069938_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- The second kernel's initial value of its running sum: zero at every entry. -/
theorem pay1_1 (j : S64x128.Idx) : k1_pay1 (F := Ideal) j = 0 := by
  unfold k1_pay1
  rw [shapeCast_self]
  exact Ideal.ofBits_zero_f32

/-- The second kernel's score at an entry: zero minus the root of the finished running sum there. -/
theorem pay3_1 (v26 : Vec Ideal S64x128 .f32) (j : S64x128.Idx) : k1_pay3 (F := Ideal) v26 j = Cert.Spec.negRoot (v26 j) := by
  unfold k1_pay3 Cert.Spec.negRoot
  exact congrArg₂ (· - ·) Ideal.ofBits_zero_f32 rfl

/-- The bf16 zero word is the extended real 0. -/
theorem ofBits_zero_bf16 : Ideal.ofBits .bf16 0x0000#16 = 0 := by simp [Ideal.ofBits, Ideal.ieee]

/-- A sum of an f32 vector over one axis, started from the zero word, read at an index: the sum over that axis's
    coordinates. -/
theorem laneSum1 {s t : Shape} {a : Fin s.rank} (src : FVec Ideal s .f32) (h : s.Reduces [a] t) (hφ : FKind.Formats .f32)
    (hacc : (0x00000000#32 : BitVec 32) = FKind.add.neutral .f32 hφ) (j : t.Idx) :
    multiReduction (F := Ideal) .add [a] t src 0x00000000#32 h hφ hacc j = ∑ k : Fin (s.size a), src (h.lift j k) :=
  Ideal.multiReduction_add_single src _ h hφ hacc j

/-- A `[1, 128, 128]` array repeated along a new leading axis of 64 reads, at `(b, n, d)`, its one slab at `(n, d)`. -/
theorem bcastLead_apply {α : Type} (x : S1x128x128.Idx → α) (b : Fin 64) (n d : Fin 128) :
    broadcastTo S64x128x128 x broadcasts_S1x128x128_S64x128x128 (ix3 b n d) = x (ix3 (0 : Fin 1) n d) :=
  broadcastTo_apply x _ (ix3 b n d) (ix3 (0 : Fin 1) n d) fun ax => match ax with
    | ⟨0, _⟩ => rfl
    | ⟨1, _⟩ => by show n.val = if (128 : Nat) = 1 then 0 else n.val; rw [if_neg (by decide)]
    | ⟨2, _⟩ => by show d.val = if (128 : Nat) = 1 then 0 else d.val; rw [if_neg (by decide)]

/-- A `[64, 1, 128]` array repeated along its unit middle axis to 128 reads, at `(b, n, d)`, the operand at `(b, 0, d)`. -/
theorem bcastMid_apply {α : Type} (x : S64x1x128.Idx → α) (b : Fin 64) (n d : Fin 128) :
    broadcastTo S64x128x128 x broadcasts_S64x1x128_S64x128x128 (ix3 b n d) = x (ix3 b (0 : Fin 1) d) :=
  broadcastTo_apply x _ (ix3 b n d) (ix3 b (0 : Fin 1) d) fun ax => match ax with
    | ⟨0, _⟩ => by show b.val = if (64 : Nat) = 1 then 0 else b.val; rw [if_neg (by decide)]
    | ⟨1, _⟩ => rfl
    | ⟨2, _⟩ => by show d.val = if (128 : Nat) = 1 then 0 else d.val; rw [if_neg (by decide)]

/-- A `[64, 128]` array cast to `[64, 1, 128]` reads, at `(b, u, d)`, the operand at `(b, d)`. -/
theorem castMid_apply {α : Type} (x : S64x128.Idx → α) (b : Fin 64) (u : Fin 1) (d : Fin 128) :
    shapeCast S64x1x128 x shapeCasts_S64x128_S64x1x128 (ix3 b u d) = x (ix2 b d) :=
  shapeCast_apply x _ _ _ (by
    have hu : u.val = 0 := by omega
    rw [Shape.rowMajor_val_three, Shape.rowMajor_val_two]
    show b.val * 128 + d.val = (b.val * 1 + u.val) * 128 + d.val
    rw [hu, Nat.mul_one, Nat.add_zero])

/-- The squared positive part, with the zero written as the bf16 zero word. -/
theorem posSq_of_eq {X Y X' Y' : EReal} (hX : X = X') (hY : Y = Y') :
    max (X - Y) (Ideal.ofBits .bf16 0x0000#16) * max (X - Y) (Ideal.ofBits .bf16 0x0000#16) = Cert.Spec.posSq (X' - Y') := by
  subst hX; subst hY
  unfold Cert.Spec.posSq
  rw [ofBits_zero_bf16]

/-- The second kernel's accumulation step at entry (b, n): the running value plus the sum, over the coordinates d, of the
    squared positive part of row n of the second operand minus row b of the first (both repeated to 64 × 128 × 128 before
    the subtraction; the format changes are the identity). -/
theorem pay2_1 (v3 : Vec Ideal S64x128 .f32) (v6 : Vec Ideal S128x128 .f32) (v16 : Vec Ideal S64x128 .f32) (b : Fin 64) (n : Fin 128) :
    k1_pay2 (F := Ideal) v3 v6 v16 (ix2 b n) = v16 (ix2 b n) + ∑ d : Fin 128, Cert.Spec.posSq (v6 (ix2 n d) - v3 (ix2 b d)) := by
  unfold k1_pay2
  rw [shapeCast_self, shapeCast_self]
  refine congrArg (v16 (ix2 b n) + ·) ?_
  refine (laneSum1 _ reduces_S64x128x128_S64x128 (.inl rfl) rfl (ix2 b n)).trans ?_
  refine Finset.sum_congr rfl fun (d : Fin 128) _ => ?_
  have hl : reduces_S64x128x128_S64x128.lift (ix2 b n) d = ix3 b n d :=
    funext fun a => Fin.ext (by match a with | ⟨0, _⟩ => rfl | ⟨1, _⟩ => rfl | ⟨2, _⟩ => rfl)
  rw [hl]
  exact posSq_of_eq
    ((bcastLead_apply _ b n d).trans (shapeCast_ab_1ab_apply _ shapeCasts_S128x128_S1x128x128 0 n d))
    ((bcastMid_apply _ b n d).trans (castMid_apply _ b 0 d))

end Cert.KernelIdeal.Pay

end
-- ==== Proof.KiVal1.lean ====
/-
  The second kernel's result tile at the exact values: at a last point of the summed axis the four points of that
  axis have each added their block's sum of squared positive parts to the accumulator, started from zero, so the
  tile's entry is minus the root of the sum over the whole axis.
-/
import proofs.«169600_j28226525069938_2_alg».proof.Proof.KiR1Val
import proofs.«169600_j28226525069938_2_alg».proof.Proof.KiBlk1
import proofs.«169600_j28226525069938_2_alg».proof.Proof.PayK1
import proofs.«169600_j28226525069938_2_alg».proof.Proof.Spec
import proofs.«169600_j28226525069938_2_alg».proof.Proof.LibBlockSum

set_option maxRecDepth 16384

noncomputable section

namespace Cert.KernelIdeal.HandV

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Cert.BlockSum

variable (V : (c : Dev nD) → (b : Ref sig .tc) → Buf (Elt Ideal) ((c : Thread nD τ).loc b)) (c : Dev nD)

/-- The array of rows scored against, as a function to the extended reals. -/
abbrev arrN : (⟨2, ![512, 512]⟩ : Shape).Idx → EReal := V c main_arg2
/-- The embedding the first kernel left, as a function to the extended reals. -/
abbrev arrE : (⟨2, ![256, 512]⟩ : Shape).Idx → EReal := V c main_v2_0

/-- The tile of the embedding the body reads at point t. -/
abbrev tileE (t : Fin cfg1.N) : Vec Ideal S64x128 .f32 := iblk1 V c 0 t
/-- The tile of the array of rows scored against, read at point t. -/
abbrev tileN (t : Fin cfg1.N) : Vec Ideal S128x128 .f32 := iblk1 V c 1 t

/-- What point t adds to the accumulator's entry (r, q): its block's sum of squared positive parts. -/
def term (t : Fin cfg1.N) (r : Fin 64) (q : Fin 128) : EReal :=
  ∑ k : Fin 128, Cert.Spec.posSq (tileN V c t (ix2 q k) - tileE V c t (ix2 r k))

/-- At a first block of the summed axis the accumulator is zero plus the block's term. -/
theorem acc1_first (t : Fin cfg1.N) (h0 : t.val % 4 = 0) (r : Fin 64) (q : Fin 128) :
    acc1 V c t.val t.isLt (ix2 r q) = 0 + term V c t r q := by
  have h3 : ¬t.val % 4 = 3 := by omega
  have e := acc1_A V c t h0 h3
  rw [sout1_A_eq] at e
  refine (congrFun e (ix2 r q)).trans ?_
  refine (pay2_1 (tileE V c t) (tileN V c t) _ r q).trans ?_
  rw [pay1_1]
  rfl

/-- At a later block the accumulator is what the point before left plus the block's term. -/
theorem acc1_next (t : Fin cfg1.N) (h0 : ¬t.val % 4 = 0) (r : Fin 64) (q : Fin 128) :
    acc1 V c t.val t.isLt (ix2 r q)
      = acc1 V c (t.val - 1) (Nat.lt_of_le_of_lt (Nat.sub_le _ _) t.isLt) (ix2 r q) + term V c t r q := by
  by_cases h3 : t.val % 4 = 3
  · have e := acc1_C V c t h0 h3
    rw [sout1_C_eq] at e
    exact (congrFun e (ix2 r q)).trans (pay2_1 (tileE V c t) (tileN V c t) _ r q)
  · have e := acc1_B V c t h0 h3
    rw [sout1_B_eq] at e
    exact (congrFun e (ix2 r q)).trans (pay2_1 (tileE V c t) (tileN V c t) _ r q)

/-- At a last block the result tile's entry is minus the root of the accumulator's entry as this block leaves it. -/
theorem res1_2_step (t : Fin cfg1.N) (h3 : t.val % 4 = 3) (r : Fin 64) (q : Fin 128) :
    res1_2 V c t (ix2 r q)
      = Cert.Spec.negRoot (acc1 V c (t.val - 1) (Nat.lt_of_le_of_lt (Nat.sub_le _ _) t.isLt) (ix2 r q) + term V c t r q) := by
  unfold res1_2
  rw [dif_pos h3, out1_C_2_eq]
  exact (pay3_1 _ (ix2 r q)).trans (congrArg Cert.Spec.negRoot (pay2_1 (tileE V c t) (tileN V c t) _ r q))

/-- The summand of the score of row r of point t's tile of the embedding against row q of its tile of rows, at position e
    of the whole summed axis. -/
def full (t : Fin cfg1.N) (r : Fin 64) (q : Fin 128) (e : Fin 512) : EReal :=
  Cert.Spec.posSq (arrN V c (ix2 (⟨128 * (t.val / 4 % 4) + q.val, by have := q.isLt; omega⟩ : Fin 512) e)
    - arrE V c (ix2 (⟨64 * (t.val / 16) + r.val, by have := lt_N1 t; have := r.isLt; omega⟩ : Fin 256) e))

/-- A point t' of the same two tiles as t, at block d of the summed axis, adds the sum of the summands of block d. -/
theorem term_eq (t t' : Fin cfg1.N) (d : Fin 4) (h16 : t'.val / 16 = t.val / 16) (h4 : t'.val / 4 % 4 = t.val / 4 % 4)
    (hd : t'.val % 4 = d.val) (r : Fin 64) (q : Fin 128) :
    term V c t' r q = ∑ k : Fin 128, full V c t r q (merged d k) := by
  unfold term
  refine Finset.sum_congr rfl fun k _ => ?_
  unfold full
  have e1 : tileN V c t' (ix2 q k) = arrN V c (ix2 (⟨128 * (t'.val / 4 % 4) + q.val, by have := q.isLt; omega⟩ : Fin 512)
      (⟨128 * (t'.val % 4) + k.val, by have := k.isLt; omega⟩ : Fin 512)) := iblk1_1 V c t' q k
  have e0 : tileE V c t' (ix2 r k) = arrE V c (ix2 (⟨64 * (t'.val / 16) + r.val, by have := lt_N1 t'; have := r.isLt; omega⟩ : Fin 256)
      (⟨128 * (t'.val % 4) + k.val, by have := k.isLt; omega⟩ : Fin 512)) := iblk1_0 V c t' r k
  rw [e1, e0]
  have eN : ∀ (a a' b b' : Fin 512), a = a' → b = b' → arrN V c (ix2 a b) = arrN V c (ix2 a' b') := by
    intro a a' b b' ha hb; subst ha; subst hb; rfl
  have eE : ∀ (a a' : Fin 256) (b b' : Fin 512), a = a' → b = b' → arrE V c (ix2 a b) = arrE V c (ix2 a' b') := by
    intro a a' b b' ha hb; subst ha; subst hb; rfl
  refine congrArg₂ (fun x y => Cert.Spec.posSq (x - y)) (eN _ _ _ _ (Fin.ext ?_) (Fin.ext ?_)) (eE _ _ _ _ (Fin.ext ?_) (Fin.ext ?_))
  · show 128 * (t'.val / 4 % 4) + q.val = 128 * (t.val / 4 % 4) + q.val; omega
  · show 128 * (t'.val % 4) + k.val = k.val + 128 * d.val; omega
  · show 64 * (t'.val / 16) + r.val = 64 * (t.val / 16) + r.val; omega
  · show 128 * (t'.val % 4) + k.val = k.val + 128 * d.val; omega

/-- The second kernel's result tile at a last point of the summed axis, entry by entry: minus the root of the sum over the
    whole axis of the squared positive parts of the row of the second array minus the row of the embedding. -/
theorem res1_2_val (t : Fin cfg1.N) (h3 : t.val % 4 = 3) (r : Fin 64) (q : Fin 128) :
    res1_2 V c t (ix2 r q)
      = Cert.Spec.negRoot (∑ e : Fin 512, Cert.Spec.posSq
          (arrN V c (ix2 (⟨128 * (t.val / 4 % 4) + q.val, by have := q.isLt; omega⟩ : Fin 512) e)
            - arrE V c (ix2 (⟨64 * (t.val / 16) + r.val, by have := lt_N1 t; have := r.isLt; omega⟩ : Fin 256) e))) := by
  have hN := lt_N1 t
  have hlt : ∀ j : ℕ, t.val - j < cfg1.N := fun j => Nat.lt_of_le_of_lt (Nat.sub_le _ _) t.isLt
  have a1 := acc1_next V c ⟨t.val - 1, hlt 1⟩ (by show ¬(t.val - 1) % 4 = 0; omega) r q
  have a2 := acc1_next V c ⟨t.val - 1 - 1, Nat.lt_of_le_of_lt (Nat.sub_le _ _) (hlt 1)⟩ (by show ¬(t.val - 1 - 1) % 4 = 0; omega) r q
  have a3 := acc1_first V c ⟨t.val - 1 - 1 - 1, Nat.lt_of_le_of_lt (Nat.sub_le _ _) (Nat.lt_of_le_of_lt (Nat.sub_le _ _) (hlt 1))⟩
    (by show (t.val - 1 - 1 - 1) % 4 = 0; omega) r q
  have b0 := term_eq V c t ⟨t.val - 1 - 1 - 1, Nat.lt_of_le_of_lt (Nat.sub_le _ _) (Nat.lt_of_le_of_lt (Nat.sub_le _ _) (hlt 1))⟩ 0
    (by show (t.val - 1 - 1 - 1) / 16 = t.val / 16; omega) (by show (t.val - 1 - 1 - 1) / 4 % 4 = t.val / 4 % 4; omega)
    (by show (t.val - 1 - 1 - 1) % 4 = 0; omega) r q
  have b1 := term_eq V c t ⟨t.val - 1 - 1, Nat.lt_of_le_of_lt (Nat.sub_le _ _) (hlt 1)⟩ 1
    (by show (t.val - 1 - 1) / 16 = t.val / 16; omega) (by show (t.val - 1 - 1) / 4 % 4 = t.val / 4 % 4; omega)
    (by show (t.val - 1 - 1) % 4 = 1; omega) r q
  have b2 := term_eq V c t ⟨t.val - 1, hlt 1⟩ 2
    (by show (t.val - 1) / 16 = t.val / 16; omega) (by show (t.val - 1) / 4 % 4 = t.val / 4 % 4; omega)
    (by show (t.val - 1) % 4 = 2; omega) r q
  have b3 := term_eq V c t t 3 rfl rfl (by show t.val % 4 = 3; exact h3) r q
  have hacc : acc1 V c (t.val - 1) (hlt 1) (ix2 r q)
      = 0 + (∑ k : Fin 128, full V c t r q (merged (0 : Fin 4) k)) + (∑ k : Fin 128, full V c t r q (merged (1 : Fin 4) k))
          + (∑ k : Fin 128, full V c t r q (merged (2 : Fin 4) k)) :=
    a1.trans (congrArg₂ (· + ·) (a2.trans (congrArg₂ (· + ·) (a3.trans (congrArg (0 + ·) b0)) b1)) b2)
  refine (res1_2_step V c t h3 r q).trans (congrArg Cert.Spec.negRoot ?_)
  rw [b3]
  refine (congrArg (· + ∑ k : Fin 128, full V c t r q (merged (3 : Fin 4) k)) hacc).trans ?_
  exact (acc_four fun d : Fin 4 => ∑ k : Fin 128, full V c t r q (merged d k)).trans
    (sum_merged (n := 4) (d := 128) (full V c t r q)).symm

end Cert.KernelIdeal.HandV

end
-- ==== Proof.KiArr0.lean ====
/-
  The first kernel's arrays after its region.

  Each of the two result windows has one block, the whole array (block index zero on both axes at every point), and
  is written back once, at the last point t = 3: afterwards the array holds what the body left in the window's
  buffer at that point. An input window's array is never written back: it holds what the region found.
-/
import proofs.«169600_j28226525069938_2_alg».proof.Proof.KiR0Frame
import proofs.«169600_j28226525069938_2_alg».proof.Proof.KiBlk0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The result windows' block indices and write-back points -/

/-- The last point of the grid. -/
abbrev last0 : Fin cfg0.N := ⟨3, lt_of_lt_of_eq (by decide : 3 < 4) N_0.symm⟩

theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)

/-- A point that writes a result back is the last one. -/
theorem eq_last0_of_mod (t : Fin cfg0.N) (h : t.val % 4 = 3) : t = last0 :=
  Fin.ext (by have := lt_N0 t; show t.val = 3; omega)

/-- An index of the first result is in point t's block iff each coordinate is in the block's range on its axis. -/
theorem mem_blk0_6 (t : Fin cfg0.N) (i : S256x512.Idx) :
    i ∈ ((cfg0.win 6).blk t).view.set ↔ ∀ a : Fin 2, win0_6.index t a * S256x512.size a ≤ (i a).val ∧ (i a).val < win0_6.index t a * S256x512.size a + S256x512.size a := by
  show i ∈ ((View.whole main_v2_0).slice (win0_6.rect t)).set ↔ _
  rw [View.set_slice_whole, Rect.mem_set_unit]
  exact Iff.rfl

/-- The same for the second result. -/
theorem mem_blk0_7 (t : Fin cfg0.N) (i : S256x1.Idx) :
    i ∈ ((cfg0.win 7).blk t).view.set ↔ ∀ a : Fin 2, win0_7.index t a * S256x1.size a ≤ (i a).val ∧ (i a).val < win0_7.index t a * S256x1.size a + S256x1.size a := by
  show i ∈ ((View.whole main_v2_1).slice (win0_7.rect t)).set ↔ _
  rw [View.set_slice_whole, Rect.mem_set_unit]
  exact Iff.rfl

variable (V : (c : Dev nD) → (b : Ref sig .tc) → Buf (Elt F) ((c : Thread nD τ).loc b))

/-! ## The result arrays after the region -/

/-- The first result: what the last point left in its buffer. -/
theorem arr0_6 (c : Dev nD) : (dat0 V c).arrAt 6 cfg0.N = res0_6 V c last0 := by
  refine (dat0 V c).arrAt_eq_of_cover 6 (res0_6 V c last0) (fun t hf => ?_) (fun i => ?_)
  · rw [← eq_last0_of_mod t ((flush0_6 t).mp hf)]
    show (cfg0.win 6).cut (grid0.coords t) ((dat0 V c).after 6 t) = _
    rw [after0_6]
    funext y
    show res0_6 V c t y = res0_6 V c t (((cfg0.win 6).blk t).view.emb y)
    refine congrArg (res0_6 V c t) (funext fun a => Fin.ext ?_)
    obtain ⟨e0, e1⟩ := idx0_6 t
    match a with
    | ⟨0, _⟩ => show (y 0).val = win0_6.index t (0 : Fin 2) * 256 + 1 * (y 0).val; omega
    | ⟨1, _⟩ => show (y 1).val = win0_6.index t (1 : Fin 2) * 512 + 1 * (y 1).val; omega
  · obtain ⟨t, ht⟩ : ∃ t : Fin cfg0.N, t.val = 3 := ⟨last0, rfl⟩
    refine ⟨t, (flush0_6 t).mpr (by omega), ?_⟩
    rw [mem_blk0_6]
    obtain ⟨e0, e1⟩ := idx0_6 t
    intro a
    match a with
    | ⟨0, _⟩ =>
      show win0_6.index t (0 : Fin 2) * 256 ≤ (i 0).val ∧ (i 0).val < win0_6.index t (0 : Fin 2) * 256 + 256
      have : (i 0).val < 256 := (i 0).isLt
      omega
    | ⟨1, _⟩ =>
      show win0_6.index t (1 : Fin 2) * 512 ≤ (i 1).val ∧ (i 1).val < win0_6.index t (1 : Fin 2) * 512 + 512
      have : (i 1).val < 512 := (i 1).isLt
      omega

/-- The second result, likewise. -/
theorem arr0_7 (c : Dev nD) : (dat0 V c).arrAt 7 cfg0.N = res0_7 V c last0 := by
  refine (dat0 V c).arrAt_eq_of_cover 7 (res0_7 V c last0) (fun t hf => ?_) (fun i => ?_)
  · rw [← eq_last0_of_mod t ((flush0_7 t).mp hf)]
    show (cfg0.win 7).cut (grid0.coords t) ((dat0 V c).after 7 t) = _
    rw [after0_7]
    funext y
    show res0_7 V c t y = res0_7 V c t (((cfg0.win 7).blk t).view.emb y)
    refine congrArg (res0_7 V c t) (funext fun a => Fin.ext ?_)
    obtain ⟨e0, e1⟩ := idx0_7 t
    match a with
    | ⟨0, _⟩ => show (y 0).val = win0_7.index t (0 : Fin 2) * 256 + 1 * (y 0).val; omega
    | ⟨1, _⟩ => show (y 1).val = win0_7.index t (1 : Fin 2) * 1 + 1 * (y 1).val; omega
  · obtain ⟨t, ht⟩ : ∃ t : Fin cfg0.N, t.val = 3 := ⟨last0, rfl⟩
    refine ⟨t, (flush0_7 t).mpr (by omega), ?_⟩
    rw [mem_blk0_7]
    obtain ⟨e0, e1⟩ := idx0_7 t
    intro a
    match a with
    | ⟨0, _⟩ =>
      show win0_7.index t (0 : Fin 2) * 256 ≤ (i 0).val ∧ (i 0).val < win0_7.index t (0 : Fin 2) * 256 + 256
      have : (i 0).val < 256 := (i 0).isLt
      omega
    | ⟨1, _⟩ =>
      show win0_7.index t (1 : Fin 2) * 1 ≤ (i 1).val ∧ (i 1).val < win0_7.index t (1 : Fin 2) * 1 + 1
      have : (i 1).val < 1 := (i 1).isLt
      omega

/-! ## The input arrays after the region -/

/-- An input window's array is what the region found. -/
theorem arr0_in (c : Dev nD) (w : Fin cfg0.W) (hw : (cfg0.win w).isOut = false) :
    (dat0 V c).arrAt w cfg0.N = V c (Pipeline.arrRef spec0 w) :=
  ((dat0 V c).arrAt_in w hw cfg0.N).trans (A_eq0 V c w)

theorem arr0_0 (c : Dev nD) : (dat0 V c).arrAt 0 cfg0.N = V c main_arg0 := arr0_in V c 0 rfl
theorem arr0_1 (c : Dev nD) : (dat0 V c).arrAt 1 cfg0.N = V c main_arg3 := arr0_in V c 1 rfl
theorem arr0_2 (c : Dev nD) : (dat0 V c).arrAt 2 cfg0.N = V c main_v0 := arr0_in V c 2 rfl
theorem arr0_3 (c : Dev nD) : (dat0 V c).arrAt 3 cfg0.N = V c main_arg5 := arr0_in V c 3 rfl
theorem arr0_4 (c : Dev nD) : (dat0 V c).arrAt 4 cfg0.N = V c main_v1 := arr0_in V c 4 rfl
theorem arr0_5 (c : Dev nD) : (dat0 V c).arrAt 5 cfg0.N = V c main_arg1 := arr0_in V c 5 rfl

end Cert.KernelIdeal.Hand

end
-- ==== Proof.KiArr1.lean ====
/-
  The second kernel's arrays after its region.

  The result, 256 × 512, is cut into tiles of 64 rows by 128 columns; the tile of point t is at block index
  (t / 16, t / 4 mod 4) and is written back at the points with t mod 4 = 3, once each. These tiles cover the array:
  entry (p, q) lies in the tile of the point 16·(p / 64) + 4·(q / 128) + 3, at (p mod 64, q mod 128) inside it, and the
  array ends holding there what the body left in the window's buffer at that point. An input window's array is
  never written back: it holds what the region found.
-/
import proofs.«169600_j28226525069938_2_alg».proof.Proof.KiR1Frame
import proofs.«169600_j28226525069938_2_alg».proof.Proof.KiBlk1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

/-! ## The result window's block indices, decided once over the grid -/

theorem idx1_2 : ∀ t : Fin cfg1.N, win1_2.index t (0 : Fin 2) = t.val / 16 ∧ win1_2.index t (1 : Fin 2) = t.val / 4 % 4 :=
  (by decide +kernel : ∀ t : Fin grid1.N, _)

/-- An index of the result is in point t's block iff each coordinate is in the block's range on its axis. -/
theorem mem_blk1_2 (t : Fin cfg1.N) (i : S256x512.Idx) :
    i ∈ ((cfg1.win 2).blk t).view.set ↔ ∀ a : Fin 2, win1_2.index t a * S64x128.size a ≤ (i a).val ∧ (i a).val < win1_2.index t a * S64x128.size a + S64x128.size a := by
  show i ∈ ((View.whole main_v3).slice (win1_2.rect t)).set ↔ _
  rw [View.set_slice_whole, Rect.mem_set_unit]
  exact Iff.rfl

/-- The point whose tile holds entry (p, q): the last block of the summed axis for row tile p / 64, column tile q / 128. -/
abbrev pt1 (p : Fin 256) (q : Fin 512) : Fin cfg1.N :=
  ⟨16 * (p.val / 64) + 4 * (q.val / 128) + 3, by have := N_1; have := p.isLt; have := q.isLt; show _ < grid1.N; omega⟩

variable (V : (c : Dev nD) → (b : Ref sig .tc) → Buf (Elt F) ((c : Thread nD τ).loc b))

/-- The buffer's contents depend on the point and the entry only through their values. -/
theorem res1_2_congr (c : Dev nD) {t t' : Fin cfg1.N} {y y' : S64x128.Idx} (ht : t = t') (hy : y = y') :
    res1_2 V c t y = res1_2 V c t' y' := by subst ht hy; rfl

/-- The result as one function of its index: the tile's point, and the entry inside the tile. -/
def G1_2 (c : Dev nD) : S256x512.Idx → Elt F .f32 := fun i =>
  res1_2 V c (pt1 (i 0) (i 1))
    (ix2 (⟨(i 0).val % 64, Nat.mod_lt _ (by decide)⟩ : Fin 64) (⟨(i 1).val % 128, Nat.mod_lt _ (by decide)⟩ : Fin 128))

/-! ## The result array after the region -/

theorem arr1_2_fun (c : Dev nD) : (dat1 V c).arrAt 2 cfg1.N = G1_2 V c := by
  refine (dat1 V c).arrAt_eq_of_cover 2 (G1_2 V c) (fun t hf => ?_) (fun i => ?_)
  · have h3 : t.val % 4 = 3 := (flush1_2 t).mp hf
    have hN := lt_N1 t
    show (cfg1.win 2).cut (grid1.coords t) ((dat1 V c).after 2 t) = _
    rw [after1_2]
    funext y
    show res1_2 V c t y = G1_2 V c (((cfg1.win 2).blk t).view.emb y)
    obtain ⟨e0, e1⟩ := idx1_2 t
    have hy0 : (y 0).val < 64 := (y 0).isLt
    have hy1 : (y 1).val < 128 := (y 1).isLt
    have hj0 : ((((cfg1.win 2).blk t).view.emb y) 0).val = win1_2.index t (0 : Fin 2) * 64 + 1 * (y 0).val := rfl
    have hj1 : ((((cfg1.win 2).blk t).view.emb y) 1).val = win1_2.index t (1 : Fin 2) * 128 + 1 * (y 1).val := rfl
    unfold G1_2
    refine res1_2_congr V c (Fin.ext ?_) (funext fun a => Fin.ext ?_)
    · show t.val = 16 * (((((cfg1.win 2).blk t).view.emb y) 0).val / 64) + 4 * (((((cfg1.win 2).blk t).view.emb y) 1).val / 128) + 3
      rw [hj0, hj1]; omega
    · match a with
      | ⟨0, _⟩ => show (y 0).val = ((((cfg1.win 2).blk t).view.emb y) 0).val % 64; rw [hj0]; omega
      | ⟨1, _⟩ => show (y 1).val = ((((cfg1.win 2).blk t).view.emb y) 1).val % 128; rw [hj1]; omega
  · have hi0 : (i 0).val < 256 := (i 0).isLt
    have hi1 : (i 1).val < 512 := (i 1).isLt
    have hv : (pt1 (i 0) (i 1)).val = 16 * ((i 0).val / 64) + 4 * ((i 1).val / 128) + 3 := rfl
    refine ⟨pt1 (i 0) (i 1), (flush1_2 _).mpr (by rw [hv]; omega), ?_⟩
    rw [mem_blk1_2]
    obtain ⟨e0, e1⟩ := idx1_2 (pt1 (i 0) (i 1))
    intro a
    match a with
    | ⟨0, _⟩ =>
      show win1_2.index (pt1 (i 0) (i 1)) (0 : Fin 2) * 64 ≤ (i 0).val ∧ (i 0).val < win1_2.index (pt1 (i 0) (i 1)) (0 : Fin 2) * 64 + 64
      rw [e0, hv]; omega
    | ⟨1, _⟩ =>
      show win1_2.index (pt1 (i 0) (i 1)) (1 : Fin 2) * 128 ≤ (i 1).val ∧ (i 1).val < win1_2.index (pt1 (i 0) (i 1)) (1 : Fin 2) * 128 + 128
      rw [e1, hv]; omega

/-- Entry (p, q) of the result after the region. -/
theorem arr1_2 (c : Dev nD) (p : Fin 256) (q : Fin 512) :
    (dat1 V c).arrAt 2 cfg1.N (ix2 p q)
      = res1_2 V c (pt1 p q) (ix2 (⟨p.val % 64, Nat.mod_lt _ (by decide)⟩ : Fin 64) (⟨q.val % 128, Nat.mod_lt _ (by decide)⟩ : Fin 128)) :=
  congrFun (arr1_2_fun V c) (ix2 p q)

/-! ## The input arrays after the region -/

/-- An input window's array is what the region found. -/
theorem arr1_in (c : Dev nD) (w : Fin cfg1.W) (hw : (cfg1.win w).isOut = false) :
    (dat1 V c).arrAt w cfg1.N = V c (Pipeline.arrRef spec1 w) :=
  ((dat1 V c).arrAt_in w hw cfg1.N).trans (A_eq1 V c w)

theorem arr1_0 (c : Dev nD) : (dat1 V c).arrAt 0 cfg1.N = V c main_v2_0 := arr1_in V c 0 rfl
theorem arr1_1 (c : Dev nD) : (dat1 V c).arrAt 1 cfg1.N = V c main_arg2 := arr1_in V c 1 rfl

end Cert.KernelIdeal.Hand

end
-- ==== Proof.KiHost.lean ====
/-
  The host operations around the two kernels, read entry by entry.

  Before the first kernel each bias vector is given a leading axis of extent one: entry (0, h) of the result is
  entry h of the vector. After the second kernel the 256 × 1 column and the 256 × 512 block are joined along the
  second axis: column 0 of the result is the column, column n + 1 is column n of the block.
-/
import proofs.«169600_j28226525069938_2_alg».proof.Proof.KiMain
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## Before the first kernel: the two bias vectors with a leading unit axis -/

/-- The first bias as the first kernel finds it: the launch vector recast to one row. -/
theorem W1_v0_eq (c : Dev nD) :
    (W1 m c (Proc.devRef .tc main_v0) : S1x2048.Idx → Elt F .f32)
      = shapeCast S1x2048 (m ((c : Thread nD τ).loc main_arg4)) shapeCasts_S2048_S1x2048 := by
  show StableHlo.after hostOps0 (W0 m c) (Proc.devRef .tc main_v0) = _
  after_results
  rfl

/-- The second bias, likewise. -/
theorem W1_v1_eq (c : Dev nD) :
    (W1 m c (Proc.devRef .tc main_v1) : S1x512.Idx → Elt F .f32)
      = shapeCast S1x512 (m ((c : Thread nD τ).loc main_arg6)) shapeCasts_S512_S1x512 := by
  show StableHlo.after hostOps0 (W0 m c) (Proc.devRef .tc main_v1) = _
  after_results
  rfl

/-- Entry (0, h) of the recast first bias is entry h of the launch vector. -/
theorem W1_v0 (c : Dev nD) (h : Fin 2048) :
    W1 m c (Proc.devRef .tc main_v0) (ix2 (0 : Fin 1) h) = m ((c : Thread nD τ).loc main_arg4) (ix1 h) :=
  (congrFun (W1_v0_eq m c) (ix2 (0 : Fin 1) h)).trans
    (shapeCast_a_1a_apply (m ((c : Thread nD τ).loc main_arg4)) shapeCasts_S2048_S1x2048 0 h)

/-- Entry (0, e) of the recast second bias is entry e of the launch vector. -/
theorem W1_v1 (c : Dev nD) (e : Fin 512) :
    W1 m c (Proc.devRef .tc main_v1) (ix2 (0 : Fin 1) e) = m ((c : Thread nD τ).loc main_arg6) (ix1 e) :=
  (congrFun (W1_v1_eq m c) (ix2 (0 : Fin 1) e)).trans
    (shapeCast_a_1a_apply (m ((c : Thread nD τ).loc main_arg6)) shapeCasts_S512_S1x512 0 e)

/-! ## After the second kernel: the column and the block joined -/

/-- The final array is the join of the two kernels' results along the second axis. -/
theorem W4_v4_eq (c : Dev nD) :
    (W4 m c (Proc.devRef .tc main_v4) : S256x513.Idx → Elt F .f32)
      = concatenate S256x513 1 [⟨S256x1, W3 m c (Proc.devRef .tc main_v2_1)⟩, ⟨S256x512, W3 m c (Proc.devRef .tc main_v3)⟩]
          concatenates_S256x1_S256x512_S256x513_d1 := by
  show StableHlo.after hostOps2 (W3 m c) (Proc.devRef .tc main_v4) = _
  after_results

/-- Entry j of the final array: in column 0 the column's entry of that row, in column n + 1 the block's entry (row, n). -/
theorem W4_v4 (c : Dev nD) (j : S256x513.Idx) :
    W4 m c (Proc.devRef .tc main_v4) j
      = if h : (j 1).val = 0 then W3 m c (Proc.devRef .tc main_v2_1) (ix2 (j 0 : Fin 256) (0 : Fin 1))
        else W3 m c (Proc.devRef .tc main_v3)
          (ix2 (j 0 : Fin 256) (⟨(j 1).val - 1, by have := idx2_lt1 j; omega⟩ : Fin 512)) := by
  refine (congrFun (W4_v4_eq m c) j).trans ?_
  obtain ⟨p, q, rfl⟩ : ∃ (p : Fin 256) (q : Fin 513), j = ix2 p q := ⟨j 0, j 1, eq_ix2 j⟩
  split
  · next h0 =>
    have hq : q.val = 0 := h0
    exact concatenate_pair_apply_left (t := S256x513) (s₁ := S256x1) (s₂ := S256x512) 1 _ _
      concatenates_S256x1_S256x512_S256x513_d1 (ix2 p q) rfl (ix2 p (0 : Fin 1))
      (fun b => match b with | ⟨0, _⟩ => rfl | ⟨1, _⟩ => hq.symm)
  · next h0 =>
    have hq : ¬ q.val = 0 := h0
    have hlt : q.val - 1 < 512 := by have := q.isLt; omega
    exact concatenate_pair_apply_right (t := S256x513) (s₁ := S256x1) (s₂ := S256x512) 1 _ _
      concatenates_S256x1_S256x512_S256x513_d1 (ix2 p q) rfl rfl (ix2 p (⟨q.val - 1, hlt⟩ : Fin 512))
      (fun b hb => match b, hb with | ⟨0, _⟩, _ => rfl | ⟨1, _⟩, hb => absurd rfl hb)
      (by show q.val - 1 + 1 = q.val; omega)

end Cert.KernelIdeal.Hand

end
-- ==== Proof.KiFinal.lean ====
/-
  The idealized kernel program's result, as one function of the seven argument arrays: the specification's.

  The first kernel's region is entered with the arguments as launched and the two bias vectors reshaped to rows; it
  leaves the embedding and the positive scores. The second kernel's region is entered with those; it leaves, tile by
  tile, the scores against the rows of the third argument. The concatenation puts the positive scores in column 0.
-/
import proofs.«169600_j28226525069938_2_alg».proof.Proof.KiArgs
import proofs.«169600_j28226525069938_2_alg».proof.Proof.KiVal0
import proofs.«169600_j28226525069938_2_alg».proof.Proof.KiVal1
import proofs.«169600_j28226525069938_2_alg».proof.Proof.KiArr0
import proofs.«169600_j28226525069938_2_alg».proof.Proof.KiArr1
import proofs.«169600_j28226525069938_2_alg».proof.Proof.KiHost
import proofs.«169600_j28226525069938_2_alg».proof.Proof.Spec

set_option maxRecDepth 16384

noncomputable section

namespace Cert.KernelIdeal.HandV

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)
open Cert.BlockSum

variable (V : (c : Dev nD) → (b : Ref sig .tc) → Buf (Elt Ideal) ((c : Thread nD τ).loc b)) (c : Dev nD)

variable (m : (ℓ : Loc nD τ sig) → Buf (Elt Ideal) ℓ)

/-- The argument arrays as launched, typed as arrays of extended reals. -/
abbrev g0 : Vec Ideal S256x4096 .f32 := m ((c : Thread nD τ).loc main_arg0)
abbrev g1 : Vec Ideal S256x512 .f32 := m ((c : Thread nD τ).loc main_arg1)
abbrev g2 : Vec Ideal S512x512 .f32 := m ((c : Thread nD τ).loc main_arg2)
abbrev g3 : Vec Ideal S2048x4096 .f32 := m ((c : Thread nD τ).loc main_arg3)
abbrev g4 : Vec Ideal S2048 .f32 := m ((c : Thread nD τ).loc main_arg4)
abbrev g5 : Vec Ideal S512x2048 .f32 := m ((c : Thread nD τ).loc main_arg5)
abbrev g6 : Vec Ideal S512 .f32 := m ((c : Thread nD τ).loc main_arg6)

/-! ## What the first region is entered with -/

theorem aX_V1 : aX (V1 m) c = g0 c m := W1_of m c main_arg0 (by decide)
theorem aP_V1 : aP (V1 m) c = g1 c m := W1_of m c main_arg1 (by decide)
theorem aW_V1 : aW (V1 m) c = g3 c m := W1_of m c main_arg3 (by decide)
theorem aWe_V1 : aWe (V1 m) c = g5 c m := W1_of m c main_arg5 (by decide)
theorem bhOf_V1 : bhOf (V1 m) c = g4 c m := funext fun i => (W1_v0 m c (i 0)).trans (congrArg (g4 c m) (eq_ix1 i).symm)
theorem beOf_V1 : beOf (V1 m) c = g6 c m := funext fun i => (W1_v1 m c (i 0)).trans (congrArg (g6 c m) (eq_ix1 i).symm)

/-! ## What the first region leaves -/

theorem emb_W2 (p : Fin 256) (e : Fin 512) :
    (W2 m c (Proc.devRef .tc main_v2_0) : Vec Ideal S256x512 .f32) (ix2 p e) = Cert.Spec.emb (g0 c m) (g3 c m) (g4 c m) (g5 c m) (g6 c m) p e := by
  refine (congrFun ((W2_arr m c 6).trans (arr0_6 (V1 m) c)) (ix2 p e)).trans ((val0_6 (V1 m) c last0 rfl p e).trans ?_)
  rw [aX_V1, aW_V1, bhOf_V1, aWe_V1, beOf_V1]

theorem pscore_W2 (p : Fin 256) :
    (W2 m c (Proc.devRef .tc main_v2_1) : Vec Ideal S256x1 .f32) (ix2 p (0 : Fin 1)) = Cert.Spec.pscore (g0 c m) (g1 c m) (g3 c m) (g4 c m) (g5 c m) (g6 c m) p := by
  refine (congrFun ((W2_arr m c 7).trans (arr0_7 (V1 m) c)) (ix2 p (0 : Fin 1))).trans ((val0_7 (V1 m) c last0 rfl p).trans ?_)
  rw [aX_V1, aP_V1, aW_V1, bhOf_V1, aWe_V1, beOf_V1]

/-! ## What the second region is entered with, and leaves -/

theorem arrN_V2 : arrN (V2 m) c = g2 c m :=
  (W2_of_ne m c main_arg2 (by decide)).trans (W1_of m c main_arg2 (by decide))

theorem nscore_W3 (p : Fin 256) (q : Fin 512) :
    (W3 m c (Proc.devRef .tc main_v3) : Vec Ideal S256x512 .f32) (ix2 p q) = Cert.Spec.nscore (g0 c m) (g2 c m) (g3 c m) (g4 c m) (g5 c m) (g6 c m) p q := by
  have hp := p.isLt
  have hq := q.isLt
  refine (congrFun (W3_arr m c 2) (ix2 p q)).trans ((arr1_2 (V2 m) c p q).trans
    ((res1_2_val (V2 m) c (pt1 p q) (by show (16 * (p.val / 64) + 4 * (q.val / 128) + 3) % 4 = 3; omega) _ _).trans ?_))
  unfold Cert.Spec.nscore
  refine congrArg Cert.Spec.negRoot (Finset.sum_congr rfl fun e _ => congrArg Cert.Spec.posSq (congrArg₂ (· - ·) ?_ ?_))
  · rw [arrN_V2]
    refine congrArg (fun a : Fin 512 => g2 c m (ix2 a e)) (Fin.ext ?_)
    show 128 * ((16 * (p.val / 64) + 4 * (q.val / 128) + 3) / 4 % 4) + q.val % 128 = q.val
    omega
  · refine Eq.trans ?_ (emb_W2 c m p e)
    refine congrArg (fun a : Fin 256 => (W2 m c (Proc.devRef .tc main_v2_0) : Vec Ideal S256x512 .f32) (ix2 a e)) (Fin.ext ?_)
    show 64 * ((16 * (p.val / 64) + 4 * (q.val / 128) + 3) / 16) + p.val % 64 = p.val
    omega

theorem pscore_W3 (p : Fin 256) :
    (W3 m c (Proc.devRef .tc main_v2_1) : Vec Ideal S256x1 .f32) (ix2 p (0 : Fin 1)) = Cert.Spec.pscore (g0 c m) (g1 c m) (g3 c m) (g4 c m) (g5 c m) (g6 c m) p :=
  (congrFun (W3_of_ne m c main_v2_1 (by decide)) _).trans (pscore_W2 c m p)

/-! ## The result -/

theorem result_W4 :
    (W4 m c (Proc.devRef .tc main_v4) : Vec Ideal S256x513 .f32) = Cert.Spec.result (g0 c m) (g1 c m) (g2 c m) (g3 c m) (g4 c m) (g5 c m) (g6 c m) := by
  funext j
  rw [W4_v4]
  unfold Cert.Spec.result
  split
  · exact pscore_W3 c m (j 0)
  · exact nscore_W3 c m (j 0) _

end Cert.KernelIdeal.HandV

end
-- ==== Proof.RefEmb.lean ====
/-
  The reference's two dense layers, entry by entry, over the extended reals.

  The program transposes each weight and contracts the left operand's last axis with the transposed weight's
  first, so entry (p, h) of the first product is Σ_k x[p,k] · Wh[h,k] and entry (p, e) of the second is
  Σ_h hidden[p,h] · We[e,h]; each bias is broadcast along the rows and added.
-/
import proofs.«169600_j28226525069938_2_alg».proof.Proof.Gen.ReferenceIdeal.Read
import proofs.«169600_j28226525069938_2_alg».proof.Proof.Spec

noncomputable section

namespace Cert.ReferenceIdeal.RefValue

open Cert.ReferenceIdeal Cert.ReferenceIdeal.Gen Idealize.ShloMosaic Idealize.ShloMosaic.ValueIdx

/-- The hidden layer at row p, column h: the contraction over k plus the bias. -/
theorem hidden_eq (a0 : (⟨S256x4096, .f32⟩ : BufTy).Contents (Elt Ideal)) (a3 : (⟨S2048x4096, .f32⟩ : BufTy).Contents (Elt Ideal))
    (a4 : (⟨S2048, .f32⟩ : BufTy).Contents (Elt Ideal)) (p : Fin 256) (h : Fin 2048) :
    Read.val_main_v4 (F := Ideal) a0 a3 a4 (ix2 p h) = Cert.Spec.hidden a0 a3 a4 p h := by
  rw [Read.val_main_v4_apply, Read.val_main_v1_apply, Read.val_main_v3_apply, Read.val_main_v2_apply]
  unfold Cert.Spec.hidden
  refine congrArg₂ (· + ·) (Finset.sum_congr rfl fun k _ => ?_) ?_
  · rw [Read.val_main_v0_apply]
    refine congrArg₂ (· * ·) (congrArg a0 ?_) (congrArg a3 ?_)
    · exact funext fun a => match a with | ⟨0, _⟩ => rfl | ⟨1, _⟩ => rfl
    · exact funext fun a => match a with | ⟨0, _⟩ => rfl | ⟨1, _⟩ => rfl
  · exact congrArg a4 (funext fun a => match a with | ⟨0, _⟩ => rfl)

/-- The embedding at row p, column e: the contraction of the hidden layer over h plus the bias. -/
theorem emb_eq (a0 : (⟨S256x4096, .f32⟩ : BufTy).Contents (Elt Ideal)) (a3 : (⟨S2048x4096, .f32⟩ : BufTy).Contents (Elt Ideal))
    (a4 : (⟨S2048, .f32⟩ : BufTy).Contents (Elt Ideal)) (a5 : (⟨S512x2048, .f32⟩ : BufTy).Contents (Elt Ideal))
    (a6 : (⟨S512, .f32⟩ : BufTy).Contents (Elt Ideal)) (p : Fin 256) (e : Fin 512) :
    Read.val_main_v9 (F := Ideal) a0 a3 a4 a5 a6 (ix2 p e) = Cert.Spec.emb a0 a3 a4 a5 a6 p e := by
  rw [Read.val_main_v9_apply, Read.val_main_v6_apply, Read.val_main_v8_apply, Read.val_main_v7_apply]
  unfold Cert.Spec.emb
  refine congrArg₂ (· + ·) (Finset.sum_congr rfl fun h _ => ?_) ?_
  · rw [Read.val_main_v5_apply]
    refine congrArg₂ (· * ·) ?_ (congrArg a5 ?_)
    · refine Eq.trans (congrArg (Read.val_main_v4 (F := Ideal) a0 a3 a4) ?_) (hidden_eq a0 a3 a4 p h)
      exact funext fun a => match a with | ⟨0, _⟩ => rfl | ⟨1, _⟩ => rfl
    · exact funext fun a => match a with | ⟨0, _⟩ => rfl | ⟨1, _⟩ => rfl
  · exact congrArg a6 (funext fun a => match a with | ⟨0, _⟩ => rfl)

end Cert.ReferenceIdeal.RefValue

end
-- ==== Proof.RefScores.lean ====
/-
  The reference's two score stages, entry by entry, over the extended reals.

  A score is minus the square root of the sum, over the embedding axis, of the squared positive part of a
  difference. The program's negation of the root is the specification's difference from zero; its positive part
  is the maximum with a zero array, and its sum starts from a zero constant, which adds nothing.
-/
import proofs.«169600_j28226525069938_2_alg».proof.Proof.RefEmb

noncomputable section

namespace Cert.ReferenceIdeal.RefValue

open Cert.ReferenceIdeal Cert.ReferenceIdeal.Gen Idealize.ShloMosaic Idealize.ShloMosaic.ValueIdx

/-- The positive score of row p: the differences are taken against row p of the positive array. -/
theorem pscore_eq (a0 : (⟨S256x4096, .f32⟩ : BufTy).Contents (Elt Ideal)) (a1 : (⟨S256x512, .f32⟩ : BufTy).Contents (Elt Ideal))
    (a3 : (⟨S2048x4096, .f32⟩ : BufTy).Contents (Elt Ideal)) (a4 : (⟨S2048, .f32⟩ : BufTy).Contents (Elt Ideal))
    (a5 : (⟨S512x2048, .f32⟩ : BufTy).Contents (Elt Ideal)) (a6 : (⟨S512, .f32⟩ : BufTy).Contents (Elt Ideal)) (p : Fin 256) :
    Read.val_main_v15 (F := Ideal) a0 a1 a3 a4 a5 a6 (ix1 p) = Cert.Spec.pscore a0 a1 a3 a4 a5 a6 p := by
  rw [Read.val_main_v15_apply, Read.val_main_v14_apply, Read.val_main_v13_apply, Read.val_main_cst_apply]
  unfold Cert.Spec.pscore Cert.Spec.negRoot
  rw [Ideal.hostNegf_def, Ideal.negf_def, Ideal.hostUnary_sqrt_def, Ideal.ofBits_def, Ideal.ofBits_zero_f32, zero_add, zero_sub]
  refine congrArg (fun s => -Ideal.sqrt s) (Finset.sum_congr rfl fun e _ => ?_)
  have hj : Read.idx_main_v13 (ix1 p) e = ix2 p e := funext fun a => match a with | ⟨0, _⟩ => rfl | ⟨1, _⟩ => rfl
  rw [hj, Read.val_main_v12_apply, Read.val_main_v11_apply, Read.val_main_v10_apply, Read.val_main_call0_v0_apply,
    Read.val_main_call0_cst_apply, emb_eq]
  unfold Cert.Spec.posSq
  rw [Ideal.mulf_def, Ideal.maximumf_def, Ideal.subf_def, Ideal.ofBits_def, Ideal.ofBits_zero_f32]

/-- The score of row p against row n of the negative array. -/
theorem nscore_eq (a0 : (⟨S256x4096, .f32⟩ : BufTy).Contents (Elt Ideal)) (a2 : (⟨S512x512, .f32⟩ : BufTy).Contents (Elt Ideal))
    (a3 : (⟨S2048x4096, .f32⟩ : BufTy).Contents (Elt Ideal)) (a4 : (⟨S2048, .f32⟩ : BufTy).Contents (Elt Ideal))
    (a5 : (⟨S512x2048, .f32⟩ : BufTy).Contents (Elt Ideal)) (a6 : (⟨S512, .f32⟩ : BufTy).Contents (Elt Ideal)) (p : Fin 256) (n : Fin 512) :
    Read.val_main_v25 (F := Ideal) a0 a2 a3 a4 a5 a6 (ix2 p n) = Cert.Spec.nscore a0 a2 a3 a4 a5 a6 p n := by
  rw [Read.val_main_v25_apply, Read.val_main_v24_apply, Read.val_main_v23_apply, Read.val_main_cst_0_apply]
  unfold Cert.Spec.nscore Cert.Spec.negRoot
  rw [Ideal.hostNegf_def, Ideal.negf_def, Ideal.hostUnary_sqrt_def, Ideal.ofBits_def, Ideal.ofBits_zero_f32, zero_add, zero_sub]
  refine congrArg (fun s => -Ideal.sqrt s) (Finset.sum_congr rfl fun e _ => ?_)
  have hj : Read.idx_main_v23 (ix2 p n) e = ix3 p n e :=
    funext fun a => match a with | ⟨0, _⟩ => rfl | ⟨1, _⟩ => rfl | ⟨2, _⟩ => rfl
  have hn : Read.idx_main_v16 (Read.idx_main_v18 (ix3 p n e)) = ix2 n e :=
    funext fun a => match a with | ⟨0, _⟩ => rfl | ⟨1, _⟩ => rfl
  have hp : Read.idx_main_v17 (Read.idx_main_v19 (ix3 p n e)) = ix2 p e :=
    funext fun a => match a with | ⟨0, _⟩ => rfl | ⟨1, _⟩ => rfl
  rw [hj, Read.val_main_v22_apply, Read.val_main_v21_apply, Read.val_main_v20_apply, Read.val_main_call1_v0_apply,
    Read.val_main_call1_cst_apply, Read.val_main_v18_apply, Read.val_main_v16_apply, Read.val_main_v19_apply,
    Read.val_main_v17_apply, hn, hp, emb_eq]
  unfold Cert.Spec.posSq
  rw [Ideal.mulf_def, Ideal.maximumf_def, Ideal.subf_def, Ideal.ofBits_def, Ideal.ofBits_zero_f32]

end Cert.ReferenceIdeal.RefValue

end
-- ==== Proof.RefValue.lean ====
/-
  The reference's result is the specification's, entry by entry.

  The last operation joins a 256 × 1 column and a 256 × 512 block along the second axis: column 0 of the result
  is the column, and column n + 1 is column n of the block. The column holds each row's positive score and the
  block its scores against the rows of the negative array.
-/
import proofs.«169600_j28226525069938_2_alg».proof.Proof.RefScores

noncomputable section

namespace Cert.ReferenceIdeal.RefValue

open Cert.ReferenceIdeal Cert.ReferenceIdeal.Gen Idealize.ShloMosaic Idealize.ShloMosaic.ValueIdx
open Idealize.ShloMosaic.TcCoe Idealize.SL.Sem

/-- The last stage of the reference, as a function of the seven argument arrays, is the specification's result. -/
theorem ref_eq_result (a0 : (⟨S256x4096, .f32⟩ : BufTy).Contents (Elt Ideal)) (a1 : (⟨S256x512, .f32⟩ : BufTy).Contents (Elt Ideal))
    (a2 : (⟨S512x512, .f32⟩ : BufTy).Contents (Elt Ideal)) (a3 : (⟨S2048x4096, .f32⟩ : BufTy).Contents (Elt Ideal))
    (a4 : (⟨S2048, .f32⟩ : BufTy).Contents (Elt Ideal)) (a5 : (⟨S512x2048, .f32⟩ : BufTy).Contents (Elt Ideal))
    (a6 : (⟨S512, .f32⟩ : BufTy).Contents (Elt Ideal)) :
    Read.val_main_v27 (F := Ideal) a0 a1 a2 a3 a4 a5 a6 = Cert.Spec.result a0 a1 a2 a3 a4 a5 a6 := by
  funext j
  obtain ⟨p, q, rfl⟩ : ∃ (p : Fin 256) (q : Fin 513), j = ix2 p q := ⟨j 0, j 1, eq_ix2 j⟩
  unfold Read.val_main_v27 Cert.Spec.result
  dsimp only
  split
  · next h0 =>
    have hq : q.val = 0 := h0
    refine (concatenate_pair_apply_left (t := S256x513) (s₁ := S256x1) (s₂ := S256x512) 1 _ _
      concatenates_S256x1_S256x512_S256x513_d1 (ix2 p q) rfl (ix2 p (0 : Fin 1)) ?_).trans ?_
    · intro b
      match b with
      | ⟨0, _⟩ => rfl
      | ⟨1, _⟩ => exact hq.symm
    · rw [Read.val_main_v26_apply]
      refine Eq.trans (congrArg (Read.val_main_v15 (F := Ideal) a0 a1 a3 a4 a5 a6) ?_) (pscore_eq a0 a1 a3 a4 a5 a6 p)
      exact funext fun a => match a with | ⟨0, _⟩ => rfl
  · next h0 =>
    have hq : ¬ q.val = 0 := h0
    have hlt : q.val - 1 < 512 := by have := q.isLt; omega
    refine (concatenate_pair_apply_right (t := S256x513) (s₁ := S256x1) (s₂ := S256x512) 1 _ _
      concatenates_S256x1_S256x512_S256x513_d1 (ix2 p q) rfl rfl (ix2 p (⟨q.val - 1, hlt⟩ : Fin 512)) ?_ ?_).trans
      (nscore_eq a0 a2 a3 a4 a5 a6 p ⟨q.val - 1, hlt⟩)
    · intro b hb
      match b, hb with
      | ⟨0, _⟩, _ => rfl
      | ⟨1, _⟩, hb => exact absurd rfl hb
    · show q.val - 1 + 1 = q.val
      omega

/-- The term the reference's run ends at, for any memory and device, is the specification's result of the
    arguments as the memory holds them. -/
theorem res_eq_result (m : (ℓ : Loc nD τ sig) → Buf (Elt Ideal) ℓ) (c : Dev nD) :
    Cert.ReferenceIdeal.Value.res_main_v27 (F := Ideal) m c
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (Read.val_main_v27_eq (F := Ideal) m c).trans (ref_eq_result _ _ _ _ _ _ _)

end Cert.ReferenceIdeal.RefValue

end
-- ==== Proof.Algebraic.lean ====
/-
  The two idealized programs, run from memories that agree on the arguments, end with the same result: the
  specification's function of the argument arrays. The kernel program's whole run gives its result buffer at the
  contents the segments leave, which is that function; the reference's generated run gives its result at its
  operations' composed term, which is that function too.
-/
import proofs.«169600_j28226525069938_2_alg».proof.Defs
import proofs.«169600_j28226525069938_2_alg».proof.Proof.KiFinal
import proofs.«169600_j28226525069938_2_alg».proof.Proof.RefValue
import proofs.«169600_j28226525069938_2_alg».proof.Proof.Frames

noncomputable section

namespace Cert.Proof.Claims

open Idealize.ShloMosaic Idealize.ShloMosaic.TcCoe Idealize.SL.Sem
open Cert.KernelIdeal.Hand Cert.KernelIdeal.HandV

theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨?_, (h c _ (mem_uc Cert.KernelIdeal.main_arg0 (by decide))).trans (W4_main_arg0 m c),
      (h c _ (mem_uc Cert.KernelIdeal.main_arg1 (by decide))).trans (W4_main_arg1 m c),
      (h c _ (mem_uc Cert.KernelIdeal.main_arg2 (by decide))).trans (W4_main_arg2 m c),
      (h c _ (mem_uc Cert.KernelIdeal.main_arg3 (by decide))).trans (W4_main_arg3 m c),
      (h c _ (mem_uc Cert.KernelIdeal.main_arg4 (by decide))).trans (W4_main_arg4 m c),
      (h c _ (mem_uc Cert.KernelIdeal.main_arg5 (by decide))).trans (W4_main_arg5 m c),
      (h c _ (mem_uc Cert.KernelIdeal.main_arg6 (by decide))).trans (W4_main_arg6 m c)⟩)
      (Cert.KernelIdeal.Hand.run_all m ρ)
    exact (h c _ (mem_uc Cert.KernelIdeal.main_v4 (by decide))).trans (result_W4 c m)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq_result m' c, (hagree c).1, (hagree c).2.1, (hagree c).2.2.1, (hagree c).2.2.2.1,
      (hagree c).2.2.2.2.1, (hagree c).2.2.2.2.2.1, (hagree c).2.2.2.2.2.2]

end Cert.Proof.Claims

end
-- ==== Proof.lean ====
/-
  Equivalence of a two-kernel scoring program with its plain reference, over the extended reals.

  The program: from x (256 × 4096), two dense layers (hidden = x·Whᵀ + bh, emb = hidden·Weᵀ + be), then for each row
  p the score −√Σ_e (max(P[p,e] − emb[p,e], 0))² against its own row of P, and the scores against every row n of Nl,
  concatenated into a 256 × 513 result. The first kernel accumulates the first layer's product over four blocks of
  the contracted axis in a scratch accumulator and finishes the second layer and the positive scores at the last
  block; the second kernel, tile by tile, accumulates the squared positive parts over four blocks of the summed axis
  and stores minus the square root at the last. The reference computes the same with whole-array operations.
  At the exact values a sum over blocks is the sum over the merged axis (addition on the extended reals is
  commutative and associative), a change of float format is the identity, and 0 − y is −y: the two programs are the
  same function of their arguments, entry by entry (module Spec states it; the kernel side and the reference side each
  prove they compute it). Neither needs the inputs finite.

  The frames: each kernel program is run segment by segment (host reshapes, the two kernel regions, the host
  concatenation); a region's kernel is run whole in each of its three control cases, with the accumulator's
  contents carried from grid point to grid point in the region's invariant. No execution faults and no argument
  array is written.
-/
import proofs.«169600_j28226525069938_2_alg».proof.Defs
import proofs.«169600_j28226525069938_2_alg».proof.Proof.Gen.Kernel
import proofs.«169600_j28226525069938_2_alg».proof.Proof.Gen.KernelIdeal
import proofs.«169600_j28226525069938_2_alg».proof.Proof.Gen.ReferenceIdeal
import proofs.«169600_j28226525069938_2_alg».proof.Proof.Gen.Pre_finite_inputs
import proofs.«169600_j28226525069938_2_alg».proof.Proof.Frames
import proofs.«169600_j28226525069938_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
